-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S64x128 : Shape := ⟨2, ![64, 128]⟩
abbrev S16x64 : Shape := ⟨2, ![16, 64]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S64x128 : S_.BroadcastsInDim S64x128 (![] : Fin 0 → Fin S64x128.rank)
  reducesTo_S64x128_S_d0_1 : S64x128.ReducesTo [0, 1] S_
  bcast_S_S16x64 : S_.BroadcastsInDim S16x64 (![] : Fin 0 → Fin S16x64.rank)
  reducesTo_S16x64_S_d0_1 : S16x64.ReducesTo [0, 1] S_
  bcast_S_S10000x16 : S_.BroadcastsInDim S10000x16 (![] : Fin 0 → Fin S10000x16.rank)
  reducesTo_S10000x16_S_d0_1 : S10000x16.ReducesTo [0, 1] S_

variable [Facts]

def fn_part1 {F : FTy → Type} [FloatOps F] (main_arg4 : FVec F S16x64 .f32) (main_arg5 : FVec F S10000x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S10000x16 .f32 := Host.absf main_arg5
  let main_cst_8 : FVec F S_ .f32 := constant S_ .f32 0x7F800000#32
  let main_v25 : FVec F S10000x16 .f32 := broadcastInDim S10000x16 ![] bcast_S_S10000x16 main_cst_8
  let main_v26 : IVec S10000x16 1 := cmpf .olt main_v24 main_v25
  let main_c_9 : IVec S_ 1 := constantI S_ 1 1#1
  let main_v27 : IVec S_ 1 := (fun x v => Host.reduce IntOp.andi x v reducesTo_S10000x16_S_d0_1 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S64x128 .f32) (main_arg3 : FVec F S16x64 .f32) (main_arg4 : FVec F S16x64 .f32) (main_arg5 : FVec F S10000x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S64x128 : Shape := ⟨2, ![64, 128]⟩
abbrev S16x64 : Shape := ⟨2, ![16, 64]⟩
abbrev S10000x16 : Shape := ⟨2, ![10000, 16]⟩
abbrev S32x64 : Shape := ⟨2, ![32, 64]⟩
abbrev S10000x1 : Shape := ⟨2, ![10000, 1]⟩
abbrev S10000x64 : Shape := ⟨2, ![10000, 64]⟩
abbrev S400x10000 : Shape := ⟨2, ![400, 10000]⟩
abbrev S400x128 : Shape := ⟨2, ![400, 128]⟩
abbrev S400x1 : Shape := ⟨2, ![400, 1]⟩
abbrev S400x64 : Shape := ⟨2, ![400, 64]⟩
abbrev S400 : Shape := ⟨1, ![400]⟩
abbrev S128x64 : Shape := ⟨2, ![128, 64]⟩
abbrev S10000x32 : Shape := ⟨2, ![10000, 32]⟩
abbrev S400x32 : Shape := ⟨2, ![400, 32]⟩
abbrev S64x32 : Shape := ⟨2, ![64, 32]⟩
abbrev S400x16 : Shape := ⟨2, ![400, 16]⟩

abbrev nBuf : Space → Nat
  | .hbm => 12
  | .vmem => 31
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S64x128, .f32⟩
  | .hbm, ⟨3, _⟩ => ⟨S16x64, .f32⟩
  | .hbm, ⟨4, _⟩ => ⟨S16x64, .f32⟩
  | .hbm, ⟨5, _⟩ => ⟨S10000x16, .f32⟩
  | .hbm, ⟨6, _⟩ => ⟨S32x64, .f32⟩
  | .hbm, ⟨7, _⟩ => ⟨S10000x1, .f32⟩
  | .hbm, ⟨8, _⟩ => ⟨S10000x64, .f32⟩
  | .hbm, ⟨9, _⟩ => ⟨S10000x32, .f32⟩
  | .hbm, ⟨10, _⟩ => ⟨S10000x16, .f32⟩
  | .hbm, ⟨11, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S64x128, .f32⟩
  | .local _ .vmem, ⟨5, _⟩ => ⟨S400x1, .f32⟩
  | .local _ .vmem, ⟨6, _⟩ => ⟨S400x1, .f32⟩
  | .local _ .vmem, ⟨7, _⟩ => ⟨S400x64, .f32⟩
  | .local _ .vmem, ⟨8, _⟩ => ⟨S400x64, .f32⟩
  | .local _ .vmem, ⟨9, _⟩ => ⟨S400x10000, .f32⟩
  | .local _ .vmem, ⟨10, _⟩ => ⟨S400x10000, .f32⟩
  | .local _ .vmem, ⟨11, _⟩ => ⟨S10000x64, .f32⟩
  | .local _ .vmem, ⟨12, _⟩ => ⟨S400x1, .f32⟩
  | .local _ .vmem, ⟨13, _⟩ => ⟨S400x1, .f32⟩
  | .local _ .vmem, ⟨14, _⟩ => ⟨S32x64, .f32⟩
  | .local _ .vmem, ⟨15, _⟩ => ⟨S400x32, .f32⟩
  | .local _ .vmem, ⟨16, _⟩ => ⟨S400x32, .f32⟩
  | .local _ .vmem, ⟨17, _⟩ => ⟨S400x10000, .f32⟩
  | .local _ .vmem, ⟨18, _⟩ => ⟨S400x10000, .f32⟩
  | .local _ .vmem, ⟨19, _⟩ => ⟨S10000x32, .f32⟩
  | .local _ .vmem, ⟨20, _⟩ => ⟨S400x1, .f32⟩
  | .local _ .vmem, ⟨21, _⟩ => ⟨S400x1, .f32⟩
  | .local _ .vmem, ⟨22, _⟩ => ⟨S400x16, .f32⟩
  | .local _ .vmem, ⟨23, _⟩ => ⟨S400x16, .f32⟩
  | .local _ .vmem, ⟨24, _⟩ => ⟨S400x16, .f32⟩
  | .local _ .vmem, ⟨25, _⟩ => ⟨S400x16, .f32⟩
  | .local _ .vmem, ⟨26, _⟩ => ⟨S400x16, .f32⟩
  | .local _ .vmem, ⟨27, _⟩ => ⟨S400x16, .f32⟩
  | .local _ .vmem, ⟨28, _⟩ => ⟨S10000x16, .f32⟩
  | .local _ .vmem, ⟨29, _⟩ => ⟨S400x10000, .f32⟩
  | .local _ .vmem, ⟨30, _⟩ => ⟨S400x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S16x64_S16x64_S32x64_d0 : Shape.Concatenates [S16x64, S16x64] S32x64 0
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S400x128_S400x128_0_0 : ∀ a, (![0, 0] : Fin 2 → Nat) a + S400x128.size a ≤ S400x128.size a
  h_S400x128 : 0 < S400x128.numel
  broadcasts_S400x1_S400x128 : S400x1.Broadcasts S400x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S400x1_S400x1 : S400x1.ShapeCasts S400x1
  broadcasts_S400x1_S400x64 : S400x1.Broadcasts S400x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S32x64_p1_0_S64x32 : S32x64.Transposes [1, 0] S64x32
  inb_S400x32_S400x32_0_0 : ∀ a, (![0, 0] : Fin 2 → Nat) a + S400x32.size a ≤ S400x32.size a
  h_S400x32 : 0 < S400x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S400x1_S400x32 : S400x1.Broadcasts S400x32
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x32.size a ≤ S10000x32.size a
  hwx1_4 : ∀ i : grid1.Coords, EltTy.bits .f32 = 32 ∨ (Rect.block (s := S10000x32) S400x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x1.size a ≤ S10000x1.size a
  hwx2_2 : ∀ i : grid2.Coords, EltTy.bits .f32 = 32 ∨ (Rect.block (s := S10000x1) S400x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S400x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S400x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S64x128 : Shape := ⟨2, ![64, 128]⟩
abbrev S16x64 : Shape := ⟨2, ![16, 64]⟩
abbrev S10000x16 : Shape := ⟨2, ![10000, 16]⟩
abbrev S_ : Shape := ⟨0, ![]⟩
abbrev S10000 : Shape := ⟨1, ![10000]⟩
abbrev S10000x1 : Shape := ⟨2, ![10000, 1]⟩
abbrev S128x64 : Shape := ⟨2, ![128, 64]⟩
abbrev S10000x64 : Shape := ⟨2, ![10000, 64]⟩
abbrev S64x16 : Shape := ⟨2, ![64, 16]⟩
abbrev S16x10000 : Shape := ⟨2, ![16, 10000]⟩

abbrev nBuf : Space → Nat
  | .hbm => 65
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S64x128, .f32⟩
  | .hbm, ⟨3, _⟩ => ⟨S16x64, .f32⟩
  | .hbm, ⟨4, _⟩ => ⟨S16x64, .f32⟩
  | .hbm, ⟨5, _⟩ => ⟨S10000x16, .f32⟩
  | .hbm, ⟨6, _⟩ => ⟨S_, .f32⟩
  | .hbm, ⟨7, _⟩ => ⟨S10000, .f32⟩
  | .hbm, ⟨8, _⟩ => ⟨S_, .f32⟩
  | .hbm, ⟨9, _⟩ => ⟨S_, .f32⟩
  | .hbm, ⟨10, _⟩ => ⟨S10000, .f32⟩
  | .hbm, ⟨11, _⟩ => ⟨S10000, .f32⟩
  | .hbm, ⟨12, _⟩ => ⟨S_, .f32⟩
  | .hbm, ⟨13, _⟩ => ⟨S10000, .f32⟩
  | .hbm, ⟨14, _⟩ => ⟨S10000, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S128x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x64, .f32⟩
  | .hbm, ⟨37, _⟩ => ⟨S10000x64, .f32⟩
  | .hbm, ⟨38, _⟩ => ⟨S64x16, .f32⟩
  | .hbm, ⟨39, _⟩ => ⟨S10000x16, .f32⟩
  | .hbm, ⟨40, _⟩ => ⟨S10000x16, .f32⟩
  | .hbm, ⟨41, _⟩ => ⟨S10000x16, .f32⟩
  | .hbm, ⟨42, _⟩ => ⟨S10000x16, .f32⟩
  | .hbm, ⟨43, _⟩ => ⟨S_, .f32⟩
  | .hbm, ⟨44, _⟩ => ⟨S10000, .f32⟩
  | .hbm, ⟨45, _⟩ => ⟨S_, .f32⟩
  | .hbm, ⟨46, _⟩ => ⟨S_, .f32⟩
  | .hbm, ⟨47, _⟩ => ⟨S10000, .f32⟩
  | .hbm, ⟨48, _⟩ => ⟨S10000, .f32⟩
  | .hbm, ⟨49, _⟩ => ⟨S_, .f32⟩
  | .hbm, ⟨50, _⟩ => ⟨S10000, .f32⟩
  | .hbm, ⟨51, _⟩ => ⟨S10000, .f32⟩
  | .hbm, ⟨52, _⟩ => ⟨S10000x1, .f32⟩
  | .hbm, ⟨53, _⟩ => ⟨S10000x64, .f32⟩
  | .hbm, ⟨54, _⟩ => ⟨S10000x64, .f32⟩
  | .hbm, ⟨55, _⟩ => ⟨S64x16, .f32⟩
  | .hbm, ⟨56, _⟩ => ⟨S10000x16, .f32⟩
  | .hbm, ⟨57, _⟩ => ⟨S10000x16, .f32⟩
  | .hbm, ⟨58, _⟩ => ⟨S10000x16, .f32⟩
  | .hbm, ⟨59, _⟩ => ⟨S10000x16, .f32⟩
  | .hbm, ⟨60, _⟩ => ⟨S10000x16, .f32⟩
  | .hbm, ⟨61, _⟩ => ⟨S10000x16, .f32⟩
  | .hbm, ⟨62, _⟩ => ⟨S10000x16, .f32⟩
  | .hbm, ⟨63, _⟩ => ⟨S16x10000, .f32⟩
  | .hbm, ⟨64, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_call2_v0 : Ref sig .tc := ⟨.hbm, 29, rfl⟩
abbrev main_call2_v1 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S64x128_S128x64_1_0 : S64x128.Transposes [1, 0] S128x64
  bcast_S10000x1_S10000x64_0_1 : S10000x1.BroadcastsInDim S10000x64 (![0, 1] : Fin 2 → Fin S10000x64.rank)
  bcast_S_S10000x64 : S_.BroadcastsInDim S10000x64 (![] : Fin 0 → Fin S10000x64.rank)
  transposes_S16x64_S64x16_1_0 : S16x64.Transposes [1, 0] S64x16
  bcast_S10000x1_S10000x16_0_1 : S10000x1.BroadcastsInDim S10000x16 (![0, 1] : Fin 2 → Fin S10000x16.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K0.lean ====
/-
  The first kernel region (row degrees, and the scaled features projected by w0ᵀ), at the buffer contents V the
  region is entered with. Its grid has 25 points; at point t the body is handed rows 400t … 400t+399 of the
  adjacency (window 0) and of the features (window 1) and the whole of w0 (window 2), and leaves in the two output
  windows' buffers (3: the degree column, 4: the projected rows) one whole-block store each, whose values are the
  body's two pure terms of the loaded blocks. Stated for any float instance: nothing here reads a value.
-/
import proofs.«108970_g8160437862604_cont_9to1_m_911_6_alg».proof.Proof.Gen.Kernel.Launch
import proofs.«108970_g8160437862604_cont_9to1_m_911_6_alg».proof.Proof.Gen.Kernel.Skeleton
import proofs.«108970_g8160437862604_cont_9to1_m_911_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S400x10000 := Rect.unit (s := S400x10000) ![0, 0] S400x10000.size inb_S400x10000_S400x10000_0_0
abbrev r0_h : Rect S400x128 := Rect.unit (s := S400x128) ![0, 0] S400x128.size inb_S400x128_S400x128_0_0
abbrev r0_w : Rect S64x128 := Rect.unit (s := S64x128) ![0, 0] S64x128.size inb_S64x128_S64x128_0_0
abbrev r0_d : Rect S400x1 := Rect.unit (s := S400x1) ![0, 0] S400x1.size inb_S400x1_S400x1_0_0
abbrev r0_g : Rect S400x64 := Rect.unit (s := S400x64) ![0, 0] S400x64.size inb_S400x64_S400x64_0_0

/-- The degree column's buffer after the body: one store of the row sums of the adjacency block. -/
def out0_3 (x0 : Vec F S400x10000 .f32) : Vec F S400x1 .f32 :=
  View.canon [⟨r0_d, k0_pay1 (View.ld x0 r0_a)⟩]
/-- The projected rows' buffer after the body: one store of the scaled feature block times w0ᵀ. -/
def out0_4 (x0 : Vec F S400x10000 .f32) (x1 : Vec F S400x128 .f32) (x2 : Vec F S64x128 .f32) : Vec F S400x64 .f32 :=
  View.canon [⟨r0_g, k0_pay2 (View.ld x0 r0_a) (View.ld x1 r0_h) (View.ld x2 r0_w)⟩]

/-- Each store covers its whole buffer. -/
theorem cover0_3 (p0 : Vec F S400x1 .f32) (y : S400x1.Idx) :
    ∃ pc ∈ ([⟨r0_d, p0⟩] : List (View.Piece (Elt F) S400x1 .f32)), y ∈ pc.1.set :=
  View.cover_of_tiled [⟨r0_d, p0⟩] S400x1.size (by rfl) y
theorem cover0_4 (p0 : Vec F S400x64 .f32) (y : S400x64.Idx) :
    ∃ pc ∈ ([⟨r0_g, p0⟩] : List (View.Piece (Elt F) S400x64 .f32)), y ∈ pc.1.set :=
  View.cover_of_tiled [⟨r0_g, p0⟩] S400x64.size (by rfl) y

set_option maxHeartbeats 1000000 in
/-- The body on whole staging buffers: the inputs' at read contents, the outputs' at anything; it ends with the
    inputs' as they were and each output's at its one store. -/
theorem sound_kernel0 (c : Dev nD) (E : Set ℕ) (i : grid0.Coords)
    (arg1 : Memref sig .tc .vmem S400x10000 .f32) (harg1 : arg1.IsWhole) (arg2 : Memref sig .tc .vmem S400x128 .f32) (harg2 : arg2.IsWhole)
    (arg3 : Memref sig .tc .vmem S64x128 .f32) (harg3 : arg3.IsWhole) (arg4 : Memref sig .tc .vmem S400x1 .f32) (harg4 : arg4.IsWhole)
    (arg5 : Memref sig .tc .vmem S400x64 .f32) (harg5 : arg5.IsWhole)
    (x0 : Vec F S400x10000 .f32) (x1 : Vec F S400x128 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__k1 i arg1 harg1 arg2 harg2 arg3 harg3 arg4 harg4 arg5 harg5) K := by
  simp only [cc0__k1_eq_skeleton]; unfold cc0__k1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of the first region on core c: its arrays as the region finds them; after the body at point t
    each input's buffer still at its block and each output's at its store of the input blocks; the scoped rest and
    the generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K1.lean ====
/-
  The second kernel region (first graph layer, then both heads' projection), at the buffer contents V the region is
  entered with. At point t of its 25 the body is handed rows 400t … 400t+399 of the adjacency (window 0), the whole
  of the first region's projected rows (window 1), the same rows of the degree column (window 2) and the whole of the
  stacked head weights (window 3), and leaves in the output window's buffer (4) one whole-block store of its pure
  term of the loaded blocks. Stated for any float instance: nothing here reads a value.
-/
import proofs.«108970_g8160437862604_cont_9to1_m_911_6_alg».proof.Proof.Gen.Kernel.Launch
import proofs.«108970_g8160437862604_cont_9to1_m_911_6_alg».proof.Proof.Gen.Kernel.Skeleton
import proofs.«108970_g8160437862604_cont_9to1_m_911_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S400x1 := Rect.unit (s := S400x1) ![0, 0] S400x1.size inb_S400x1_S400x1_0_0
abbrev r1_3 : Rect S32x64 := Rect.unit (s := S32x64) ![0, 0] S32x64.size inb_S32x64_S32x64_0_0
abbrev r1_4 : Rect S400x32 := Rect.unit (s := S400x32) ![0, 0] S400x32.size inb_S400x32_S400x32_0_0

/-- The output buffer after the body: one store of the rectified, rescaled aggregate times the stacked weights' transpose. -/
def out1_4 (x0 : Vec F S400x10000 .f32) (x1 : Vec F S10000x64 .f32) (x2 : Vec F S400x1 .f32) (x3 : Vec F S32x64 .f32) : Vec F S400x32 .f32 :=
  View.canon [⟨r1_4, k1_pay1 (View.ld x0 r1_0) (View.ld x1 r1_1) (View.ld x2 r1_2) (View.ld x3 r1_3)⟩]

/-- Each store covers its whole buffer. -/
theorem cover1_4 (p0 : Vec F S400x32 .f32) (y : S400x32.Idx) :
    ∃ pc ∈ ([⟨r1_4, p0⟩] : List (View.Piece (Elt F) S400x32 .f32)), y ∈ pc.1.set :=
  View.cover_of_tiled [⟨r1_4, p0⟩] S400x32.size (by rfl) y

set_option maxHeartbeats 1000000 in
/-- The body on whole staging buffers: the inputs' at read contents, the outputs' at anything; it ends with the
    inputs' as they were and each output's at its one store. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole) (arg3 : Memref sig .tc .vmem S400x1 .f32) (harg3 : arg3.IsWhole) (arg4 : Memref sig .tc .vmem S32x64 .f32) (harg4 : arg4.IsWhole) (arg5 : Memref sig .tc .vmem S400x32 .f32) (harg5 : arg5.IsWhole)
    (x0 : Vec F S400x10000 .f32) (x1 : Vec F S10000x64 .f32) (x2 : Vec F S400x1 .f32) (x3 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__k2 i arg1 harg1 arg2 harg2 arg3 harg3 arg4 harg4 arg5 harg5) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of this region on core c: its arrays as the region finds them; after the body at point t each
    input's buffer still at its block and each output's at its store of the input blocks; the scoped rest and the
    generator register ride along untouched; nothing owed; the inputs' arrays held at the shares q. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K2.lean ====
/-
  The third kernel region (second graph layer and the sampled code), at the buffer contents V the region is entered
  with. At point t of its 25 the body is handed rows 400t … 400t+399 of the adjacency (window 0), the whole of the
  second region's rows (window 1), the same rows of the degree column (window 2) and of the noise (window 3), and
  leaves in the output window's buffer (4) one whole-block store of its pure term of the loaded blocks. Stated for
  any float instance: nothing here reads a value.
-/
import proofs.«108970_g8160437862604_cont_9to1_m_911_6_alg».proof.Proof.Gen.Kernel.Launch
import proofs.«108970_g8160437862604_cont_9to1_m_911_6_alg».proof.Proof.Gen.Kernel.Skeleton
import proofs.«108970_g8160437862604_cont_9to1_m_911_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x1 := Rect.unit (s := S400x1) ![0, 0] S400x1.size inb_S400x1_S400x1_0_0
abbrev r2_3 : Rect S400x16 := Rect.unit (s := S400x16) ![0, 0] S400x16.size inb_S400x16_S400x16_0_0
abbrev r2_4 : Rect S400x16 := Rect.unit (s := S400x16) ![0, 0] S400x16.size inb_S400x16_S400x16_0_0

/-- The output buffer after the body: one store of mean head plus exp of the log-deviation head times the noise. -/
def out2_4 (x0 : Vec F S400x10000 .f32) (x1 : Vec F S10000x32 .f32) (x2 : Vec F S400x1 .f32) (x3 : Vec F S400x16 .f32) : Vec F S400x16 .f32 :=
  View.canon [⟨r2_4, k2_pay1 (View.ld x0 r2_0) (View.ld x1 r2_1) (View.ld x2 r2_2) (View.ld x3 r2_3)⟩]

/-- Each store covers its whole buffer. -/
theorem cover2_4 (p0 : Vec F S400x16 .f32) (y : S400x16.Idx) :
    ∃ pc ∈ ([⟨r2_4, p0⟩] : List (View.Piece (Elt F) S400x16 .f32)), y ∈ pc.1.set :=
  View.cover_of_tiled [⟨r2_4, p0⟩] S400x16.size (by rfl) y

set_option maxHeartbeats 1000000 in
/-- The body on whole staging buffers: the inputs' at read contents, the outputs' at anything; it ends with the
    inputs' as they were and each output's at its one store. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole) (arg3 : Memref sig .tc .vmem S400x1 .f32) (harg3 : arg3.IsWhole) (arg4 : Memref sig .tc .vmem S400x16 .f32) (harg4 : arg4.IsWhole) (arg5 : Memref sig .tc .vmem S400x16 .f32) (harg5 : arg5.IsWhole)
    (x0 : Vec F S400x10000 .f32) (x1 : Vec F S10000x32 .f32) (x2 : Vec F S400x1 .f32) (x3 : Vec F S400x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__k3 i arg1 harg1 arg2 harg2 arg3 harg3 arg4 harg4 arg5 harg5) K := by
  simp only [cc2__k3_eq_skeleton]; unfold cc2__k3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this region on core c: its arrays as the region finds them; after the body at point t each
    input's buffer still at its block and each output's at its store of the input blocks; the scoped rest and the
    generator register ride along untouched; nothing owed; the inputs' arrays held at the shares q. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K3.lean ====
/-
  The fourth kernel region (the decoder's inner products), at the buffer contents V the region is entered with. Two
  of its windows read the SAME array, the code z: window 0 its rows 400t … 400t+399 at point t, window 1 the whole
  of it; each holds the array at a share of its own (q). The body leaves in the output window's buffer (2) one
  whole-block store of its pure term of the two loaded blocks. Stated for any float instance.
-/
import proofs.«108970_g8160437862604_cont_9to1_m_911_6_alg».proof.Proof.Gen.Kernel.Launch
import proofs.«108970_g8160437862604_cont_9to1_m_911_6_alg».proof.Proof.Gen.Kernel.Skeleton
import proofs.«108970_g8160437862604_cont_9to1_m_911_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (an unfetched window's
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_2 : Rect S400x10000 := Rect.unit (s := S400x10000) ![0, 0] S400x10000.size inb_S400x10000_S400x10000_0_0

/-- The output buffer after the body: one store of the row block times the whole code's transpose. -/
def out3_2 (x0 : Vec F S400x16 .f32) (x1 : Vec F S10000x16 .f32) : Vec F S400x10000 .f32 :=
  View.canon [⟨r3_2, k3_pay1 (View.ld x0 r3_0) (View.ld x1 r3_1)⟩]

/-- Each store covers its whole buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging buffers: the inputs' at read contents, the outputs' at anything; it ends with the
    inputs' as they were and each output's at its one store. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__k4 i arg1 harg1 arg2 harg2 arg3 harg3) K := by
  simp only [cc3__k4_eq_skeleton]; unfold cc3__k4_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region on core c: its arrays as the region finds them; after the body at point t each
    input's buffer still at its block and each output's at its store of the input blocks; the scoped rest and the
    generator register ride along untouched; nothing owed; the inputs' arrays held at the shares q. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := q w
  owed _ := 0

theorem A_eq3 (q : Fin cfg3.W → PosShare TreeShare) (c : Dev nD) (w : Fin cfg3.W) : (dat3 V q c).A w = V c (Pipeline.arrRef spec3 w) := by
  dsimp only [dat3]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = out3_2 (iblk3 V c 0 t) (iblk3 V c 1 t) := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d

/-- What the body is called with at point t, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' buffers hold their blocks, so the body's run applies; the invariant and the
    core's dues pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Cert.Kernel.Fr

end
-- ==== Proof.KRun.lean ====
/-
  The whole run of the program: one host operation (the two head weights stacked), then the four kernel regions in
  order. The contents of every unscoped buffer are followed from the launch through each item: a host stretch applies
  its operations; a region leaves its arrays at what its write-backs make of them and every other buffer alone. The
  run ends with every unscoped buffer at the last of these contents. Stated for any float instance.
-/
import proofs.«108970_g8160437862604_cont_9to1_m_911_6_alg».proof.Proof.K0
import proofs.«108970_g8160437862604_cont_9to1_m_911_6_alg».proof.Proof.K1
import proofs.«108970_g8160437862604_cont_9to1_m_911_6_alg».proof.Proof.K2
import proofs.«108970_g8160437862604_cont_9to1_m_911_6_alg».proof.Proof.K3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output with every point's
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output with every point's
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output with every point's
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The shares at which the fourth region's two input windows hold the one array they both read. -/
def q3 : Fin cfg3.W → PosShare TreeShare := fun w => match w with
  | ⟨0, _⟩ => fullShare.left
  | ⟨1, _⟩ => fullShare.right
  | ⟨2, _⟩ => fullShare

/-- At region 3's exit: the output array at what the write-backs leave, every other buffer as entered (its two input
    windows read one array and write nothing). -/
def W5 (c : Dev nD) : Valuation τ sig (Elt F) :=
  Function.update (W4 m ρ c) (Proc.devRef .tc (Pipeline.arrRef spec3 2)) ((dat3 (V4 m ρ) q3 c).arrAt 2 cfg3.N)
theorem W5_out (c : Dev nD) : W5 m ρ c (Proc.devRef .tc (Pipeline.arrRef spec3 2)) = (dat3 (V4 m ρ) q3 c).arrAt 2 cfg3.N := by
  unfold W5; exact Function.update_self ..
theorem W5_of_ne (c : Dev nD) (b : Ref sig .tc) (hb : Pipeline.arrRef spec3 2 ≠ b) :
    W5 m ρ c (Proc.devRef .tc b) = W4 m ρ c (Proc.devRef .tc b) := by
  unfold W5; exact Function.update_of_ne (fun e => hb (Proc.devRef_injective _ e).symm) ..
abbrev V5 : (c : Dev nD) → (b : Ref sig .tc) → Buf (Elt F) ((c : Thread nD τ).loc b) := fun c b => W5 m ρ c b

/-! ## What each item leaves alone -/

/-- The host stretch writes only the stacked weights. -/
theorem W1_keep (c : Dev nD) (b : Ref sig .tc) (hb : b ≠ main_v0) : W1 m ρ c (Proc.devRef .tc b) = m ((c : Thread nD τ).loc b) :=
  (StableHlo.after_of_forall_not_mem (b := Proc.devRef .tc b) _ _ (List.forall_iff_forall_mem.mp (by
      simp only [hostOps0, List.Forall, StableHlo.binary_writes, Finset.mem_singleton]
      exact StableHlo.devRef_ne_of_ne hb))).trans rfl

/-- Region 0 changes only its output arrays: any other buffer is an input window's array (never written) or no array
    of the region at all. -/
theorem W2_keep (c : Dev nD) (b : Ref sig .tc) (h0 : b ≠ main_v1_0) (h1 : b ≠ main_v1_1) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      revert h0 h1; revert w; decide
    exact (W2_arr m ρ c w).trans (((dat0 (V1 m ρ) c).arrAt_in w hw _).trans (A_eq0 (V1 m ρ) c w))
  · exact W2_of_ne m ρ c b fun w e => h ⟨w, e⟩

/-- Region 1 changes only its output arrays: any other buffer is an input window's array (never written) or no array
    of the region at all. -/
theorem W3_keep (c : Dev nD) (b : Ref sig .tc) (h0 : b ≠ main_v2) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      revert h0; revert w; decide
    exact (W3_arr m ρ c w).trans (((dat1 (V2 m ρ) c).arrAt_in w hw _).trans (A_eq1 (V2 m ρ) c w))
  · exact W3_of_ne m ρ c b fun w e => h ⟨w, e⟩

/-- Region 2 changes only its output arrays: any other buffer is an input window's array (never written) or no array
    of the region at all. -/
theorem W4_keep (c : Dev nD) (b : Ref sig .tc) (h0 : b ≠ main_v3) :
    W4 m ρ c (Proc.devRef .tc b) = W3 m ρ c (Proc.devRef .tc b) := by
  by_cases h : ∃ w, Pipeline.arrRef spec2 w = b
  · obtain ⟨w, rfl⟩ := h
    have hw : (cfg2.win w).isOut = false := by
      revert h0; revert w; decide
    exact (W4_arr m ρ c w).trans (((dat2 (V3 m ρ) c).arrAt_in w hw _).trans (A_eq2 (V3 m ρ) c w))
  · exact W4_of_ne m ρ c b fun w e => h ⟨w, e⟩

/-- A buffer no item writes ends as launched. -/
theorem W5_keep (c : Dev nD) (b : Ref sig .tc) (h0 : b ≠ main_v0) (h1 : b ≠ main_v1_0) (h2 : b ≠ main_v1_1) (h3 : b ≠ main_v2)
    (h4 : b ≠ main_v3) (h5 : b ≠ main_v4) : W5 m ρ c (Proc.devRef .tc b) = m ((c : Thread nD τ).loc b) :=
  (W5_of_ne m ρ c b (fun e => h5 e.symm)).trans <| (W4_keep m ρ c b h4).trans <| (W3_keep m ρ c b h3).trans <|
    (W2_keep m ρ c b h1 h2).trans (W1_keep m ρ c b h0)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) q3 c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the contents before it, left with them at the
    contents after it. Its arrays are split out of the unscoped buffers at entry and put back, at what the write-backs
    leave, at exit; the generator register goes into the region invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers at entry and put back, at what the write-backs
    leave, at exit; the generator register goes into the region invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it. Its arrays are split out of the unscoped buffers at entry and put back, at what the write-backs
    leave, at exit; the generator register goes into the region invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays, window by window: the two input windows' one array at their two shares, the output's whole. -/
theorem arrays3_eq (c : Dev nD) (V : (c : Dev nD) → (b : Ref sig .tc) → Buf (Elt F) ((c : Thread nD τ).loc b)) (q : Fin cfg3.W → PosShare TreeShare)
    (Fn : (w : Fin cfg3.W) → Buf (Elt F) ((cfg3.win w).arr.view.loc (c : Thread nD τ))) :
    ((dat3 V q c).arrays Fn : sProp 𝕄)
      = iprop((((c : Thread nD τ).loc main_v3) ↦{q 0} Fn 0) ∗ (((c : Thread nD τ).loc main_v3) ↦{q 1} Fn 1) ∗ (((c : Thread nD τ).loc main_v4) ↦{fullShare} Fn 2)) := by
  unfold Dat.arrays
  rw [bigSep_W3, (arr_whole3 0).set_eq_univ, (arr_whole3 2).set_eq_univ]
  rfl

/-- The distinct buffers behind region 3's arrays. -/
theorem arrBufs3_eq (c : Dev nD) (V : (b : Ref sig .tc) → Buf (Elt F) ((c : Thread nD τ).loc b)) :
    (Pipeline.arrBufs spec3 c V : sProp 𝕄)
      = iprop((((c : Thread nD τ).loc main_v3) ↦{fullShare} V main_v3) ∗ (((c : Thread nD τ).loc main_v4) ↦{fullShare} V main_v4)) := by
  unfold Pipeline.arrBufs
  exact bigSep_eq_bigSepL_of_eq [main_v3, main_v4] (by decide) (by decide) _

/-- Entry of region 3: of the core's unscoped buffers, the code's buffer is dealt to the two input windows as its two
    halves, the output's buffer goes to the output window whole, the rest bypasses the region. -/
theorem entry3 (c : Dev nD) (V : (c : Dev nD) → (b : Ref sig .tc) → Buf (Elt F) ((c : Thread nD τ).loc b)) :
    (unscopedBufs c (V c) : sProp 𝕄)
      ⊢ iprop((dat3 V q3 c).arrays ((dat3 V q3 c).arrAt · 0) ∗ Pipeline.unscopedRest spec3 c (V c)) := by
  rw [Pipeline.unscopedBufs_split₀ cfgs 3 winFacts₀3.arr_unscoped c (V c), arrays3_eq]
  rw [show (Pipeline.arrBufs (cfgs 3).spec c (V c) : sProp 𝕄) = Pipeline.arrBufs spec3 c (V c) from rfl, arrBufs3_eq]
  rw [show q3 0 = fullShare.left from rfl, show q3 1 = fullShare.right from rfl]
  have hs : ((((c : Thread nD τ).loc main_v3) ↦{fullShare} V c main_v3) : sProp 𝕄)
      ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨⟨H3, H4⟩, Hrest⟩
  ihave H := hs $$ H3
  icases H with ⟨Hl, Hr⟩
  isplitr [Hrest]
  · isplitl [Hl]; · iexact Hl
    isplitl [Hr]; · iexact Hr
    iexact H4
  iexact Hrest

/-- Exit of region 3: the two halves of the code's buffer, both still at the entry contents, are joined; the output's
    buffer holds what the write-backs left; with the rest these are the core's unscoped buffers at the exit contents. -/
theorem exit3 (c : Dev nD) :
    iprop((dat3 (V4 m ρ) q3 c).arrays ((dat3 (V4 m ρ) q3 c).arrAt · cfg3.N) ∗ Pipeline.unscopedRest spec3 c (V4 m ρ c))
      ⊢ (unscopedBufs c (V5 m ρ c) : sProp 𝕄) := by
  have hrest : (Pipeline.unscopedRest spec3 c (V5 m ρ c) : sProp 𝕄) = Pipeline.unscopedRest spec3 c (V4 m ρ c) := by
    unfold Pipeline.unscopedRest
    exact bigSep_congr fun b hb => by
      rw [show V5 m ρ c b = V4 m ρ c b from W5_of_ne m ρ c b (fun e => (Finset.mem_sdiff.mp hb).2 (Finset.mem_image.mpr ⟨2, Finset.mem_univ _, e⟩))]
  have e0 : (dat3 (V4 m ρ) q3 c).arrAt 0 cfg3.N = V4 m ρ c main_v3 :=
    ((dat3 (V4 m ρ) q3 c).arrAt_in 0 rfl _).trans (A_eq3 (V4 m ρ) q3 c 0)
  have e1 : (dat3 (V4 m ρ) q3 c).arrAt 1 cfg3.N = V4 m ρ c main_v3 :=
    ((dat3 (V4 m ρ) q3 c).arrAt_in 1 rfl _).trans (A_eq3 (V4 m ρ) q3 c 1)
  have e3 : V5 m ρ c main_v3 = V4 m ρ c main_v3 := W5_of_ne m ρ c main_v3 (by decide)
  have e4 : V5 m ρ c main_v4 = (dat3 (V4 m ρ) q3 c).arrAt 2 cfg3.N := W5_out m ρ c
  rw [Pipeline.unscopedBufs_split₀ cfgs 3 winFacts₀3.arr_unscoped c (V5 m ρ c), arrays3_eq]
  rw [show (Pipeline.arrBufs (cfgs 3).spec c (V5 m ρ c) : sProp 𝕄) = Pipeline.arrBufs spec3 c (V5 m ρ c) from rfl, arrBufs3_eq,
    show (Pipeline.unscopedRest (cfgs 3).spec c (V5 m ρ c) : sProp 𝕄) = Pipeline.unscopedRest spec3 c (V5 m ρ c) from rfl, hrest, e0, e1, e3, e4]
  rw [show q3 0 = fullShare.left from rfl, show q3 1 = fullShare.right from rfl]
  have hj : iprop((((c : Thread nD τ).loc main_v3) ↦{fullShare.left} V4 m ρ c main_v3) ∗ (((c : Thread nD τ).loc main_v3) ↦{fullShare.right} V4 m ρ c main_v3))
      ⊢ ((((c : Thread nD τ).loc main_v3) ↦{fullShare} V4 m ρ c main_v3) : sProp 𝕄) :=
    (pointsTo_share (PosShare.mem_left_op_right fullShare)).2
  iintro ⟨⟨Hl, Hr, H4⟩, Hrest⟩
  isplitr [Hrest]
  · isplitr [H4]
    · iapply hj
      isplitl [Hl]; · iexact Hl
      iexact Hr
    iexact H4
  iexact Hrest

set_option backward.isDefEq.respectTransparency.types false in
/-- Region 3 as a segment. Its two input windows read one array: at entry that buffer, whole at the full share, is
    dealt to the two windows as its two halves; at exit the halves, both still at the entry contents, are joined. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) q3 c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0) ∗ Pipeline.unscopedRest (Ix := Unit) (Name := ℕ) (U := UR sig nD τ) (Lvl := ℕ) spec3 c (V4 m ρ c)) :=
      entry3 (F := F) c (V4 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest (Ix := Unit) (Name := ℕ) (U := UR sig nD τ) (Lvl := ℕ) spec3 c (V4 m ρ c))
        ⊢ (unscopedBufs c (V5 m ρ c) : sProp 𝕄) := exit3 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution of @main terminates, nothing faulting, and the six argument arrays end as
    launched (no item writes one). -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_keep m ρ c main_arg0 (by decide) (by decide) (by decide) (by decide) (by decide) (by decide)),
     (h c _ (mem_uc main_arg1 (by decide))).trans (W5_keep m ρ c main_arg1 (by decide) (by decide) (by decide) (by decide) (by decide) (by decide)),
     (h c _ (mem_uc main_arg2 (by decide))).trans (W5_keep m ρ c main_arg2 (by decide) (by decide) (by decide) (by decide) (by decide) (by decide)),
     (h c _ (mem_uc main_arg3 (by decide))).trans (W5_keep m ρ c main_arg3 (by decide) (by decide) (by decide) (by decide) (by decide) (by decide)),
     (h c _ (mem_uc main_arg4 (by decide))).trans (W5_keep m ρ c main_arg4 (by decide) (by decide) (by decide) (by decide) (by decide) (by decide)),
     (h c _ (mem_uc main_arg5 (by decide))).trans (W5_keep m ρ c main_arg5 (by decide) (by decide) (by decide) (by decide) (by decide) (by decide))⟩)
    (run_all m ρ)

end Cert.Kernel.Fr

end
-- ==== Proof.KI0.lean ====
/-
  The first kernel region (row degrees, and the scaled features projected by w0ᵀ), at the buffer contents V the
  region is entered with. Its grid has 25 points; at point t the body is handed rows 400t … 400t+399 of the
  adjacency (window 0) and of the features (window 1) and the whole of w0 (window 2), and leaves in the two output
  windows' buffers (3: the degree column, 4: the projected rows) one whole-block store each, whose values are the
  body's two pure terms of the loaded blocks. Stated for any float instance: nothing here reads a value.
-/
import proofs.«108970_g8160437862604_cont_9to1_m_911_6_alg».proof.Proof.Gen.KernelIdeal.Launch
import proofs.«108970_g8160437862604_cont_9to1_m_911_6_alg».proof.Proof.Gen.KernelIdeal.Skeleton
import proofs.«108970_g8160437862604_cont_9to1_m_911_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S400x10000 := Rect.unit (s := S400x10000) ![0, 0] S400x10000.size inb_S400x10000_S400x10000_0_0
abbrev r0_h : Rect S400x128 := Rect.unit (s := S400x128) ![0, 0] S400x128.size inb_S400x128_S400x128_0_0
abbrev r0_w : Rect S64x128 := Rect.unit (s := S64x128) ![0, 0] S64x128.size inb_S64x128_S64x128_0_0
abbrev r0_d : Rect S400x1 := Rect.unit (s := S400x1) ![0, 0] S400x1.size inb_S400x1_S400x1_0_0
abbrev r0_g : Rect S400x64 := Rect.unit (s := S400x64) ![0, 0] S400x64.size inb_S400x64_S400x64_0_0

/-- The degree column's buffer after the body: one store of the row sums of the adjacency block. -/
def out0_3 (x0 : Vec F S400x10000 .f32) : Vec F S400x1 .f32 :=
  View.canon [⟨r0_d, k0_pay1 (View.ld x0 r0_a)⟩]
/-- The projected rows' buffer after the body: one store of the scaled feature block times w0ᵀ. -/
def out0_4 (x0 : Vec F S400x10000 .f32) (x1 : Vec F S400x128 .f32) (x2 : Vec F S64x128 .f32) : Vec F S400x64 .f32 :=
  View.canon [⟨r0_g, k0_pay2 (View.ld x0 r0_a) (View.ld x1 r0_h) (View.ld x2 r0_w)⟩]

/-- Each store covers its whole buffer. -/
theorem cover0_3 (p0 : Vec F S400x1 .f32) (y : S400x1.Idx) :
    ∃ pc ∈ ([⟨r0_d, p0⟩] : List (View.Piece (Elt F) S400x1 .f32)), y ∈ pc.1.set :=
  View.cover_of_tiled [⟨r0_d, p0⟩] S400x1.size (by rfl) y
theorem cover0_4 (p0 : Vec F S400x64 .f32) (y : S400x64.Idx) :
    ∃ pc ∈ ([⟨r0_g, p0⟩] : List (View.Piece (Elt F) S400x64 .f32)), y ∈ pc.1.set :=
  View.cover_of_tiled [⟨r0_g, p0⟩] S400x64.size (by rfl) y

set_option maxHeartbeats 1000000 in
/-- The body on whole staging buffers: the inputs' at read contents, the outputs' at anything; it ends with the
    inputs' as they were and each output's at its one store. -/
theorem sound_kernel0 (c : Dev nD) (E : Set ℕ) (i : grid0.Coords)
    (arg1 : Memref sig .tc .vmem S400x10000 .f32) (harg1 : arg1.IsWhole) (arg2 : Memref sig .tc .vmem S400x128 .f32) (harg2 : arg2.IsWhole)
    (arg3 : Memref sig .tc .vmem S64x128 .f32) (harg3 : arg3.IsWhole) (arg4 : Memref sig .tc .vmem S400x1 .f32) (harg4 : arg4.IsWhole)
    (arg5 : Memref sig .tc .vmem S400x64 .f32) (harg5 : arg5.IsWhole)
    (x0 : Vec F S400x10000 .f32) (x1 : Vec F S400x128 .f32) (x2 : Vec F S64x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0) ∗ owns (c : Thread nD τ) arg5 fullShare (out0_4 x0 x1 x2)) -∗ K ⟨⟩))
      ⊢ wp frame (wpE (defs₀ (F := F)) Variants.none c none) E (cc0__k1 i arg1 harg1 arg2 harg2 arg3 harg3 arg4 harg4 arg5 harg5) K := by
  simp only [cc0__k1_eq_skeleton]; unfold cc0__k1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of the first region on core c: its arrays as the region finds them; after the body at point t
    each input's buffer still at its block and each output's at its store of the input blocks; the scoped rest and
    the generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI1.lean ====
/-
  The second kernel region (first graph layer, then both heads' projection), at the buffer contents V the region is
  entered with. At point t of its 25 the body is handed rows 400t … 400t+399 of the adjacency (window 0), the whole
  of the first region's projected rows (window 1), the same rows of the degree column (window 2) and the whole of the
  stacked head weights (window 3), and leaves in the output window's buffer (4) one whole-block store of its pure
  term of the loaded blocks. Stated for any float instance: nothing here reads a value.
-/
import proofs.«108970_g8160437862604_cont_9to1_m_911_6_alg».proof.Proof.Gen.KernelIdeal.Launch
import proofs.«108970_g8160437862604_cont_9to1_m_911_6_alg».proof.Proof.Gen.KernelIdeal.Skeleton
import proofs.«108970_g8160437862604_cont_9to1_m_911_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S400x1 := Rect.unit (s := S400x1) ![0, 0] S400x1.size inb_S400x1_S400x1_0_0
abbrev r1_3 : Rect S32x64 := Rect.unit (s := S32x64) ![0, 0] S32x64.size inb_S32x64_S32x64_0_0
abbrev r1_4 : Rect S400x32 := Rect.unit (s := S400x32) ![0, 0] S400x32.size inb_S400x32_S400x32_0_0

/-- The output buffer after the body: one store of the rectified, rescaled aggregate times the stacked weights' transpose. -/
def out1_4 (x0 : Vec F S400x10000 .f32) (x1 : Vec F S10000x64 .f32) (x2 : Vec F S400x1 .f32) (x3 : Vec F S32x64 .f32) : Vec F S400x32 .f32 :=
  View.canon [⟨r1_4, k1_pay1 (View.ld x0 r1_0) (View.ld x1 r1_1) (View.ld x2 r1_2) (View.ld x3 r1_3)⟩]

/-- Each store covers its whole buffer. -/
theorem cover1_4 (p0 : Vec F S400x32 .f32) (y : S400x32.Idx) :
    ∃ pc ∈ ([⟨r1_4, p0⟩] : List (View.Piece (Elt F) S400x32 .f32)), y ∈ pc.1.set :=
  View.cover_of_tiled [⟨r1_4, p0⟩] S400x32.size (by rfl) y

set_option maxHeartbeats 1000000 in
/-- The body on whole staging buffers: the inputs' at read contents, the outputs' at anything; it ends with the
    inputs' as they were and each output's at its one store. -/
theorem sound_kernel1 (c : Dev nD) (E : Set ℕ) (i : grid1.Coords)
    (arg1 : Memref sig .tc .vmem S400x10000 .f32) (harg1 : arg1.IsWhole) (arg2 : Memref sig .tc .vmem S10000x64 .f32) (harg2 : arg2.IsWhole) (arg3 : Memref sig .tc .vmem S400x1 .f32) (harg3 : arg3.IsWhole) (arg4 : Memref sig .tc .vmem S32x64 .f32) (harg4 : arg4.IsWhole) (arg5 : Memref sig .tc .vmem S400x32 .f32) (harg5 : arg5.IsWhole)
    (x0 : Vec F S400x10000 .f32) (x1 : Vec F S10000x64 .f32) (x2 : Vec F S400x1 .f32) (x3 : Vec F S32x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__k2 i arg1 harg1 arg2 harg2 arg3 harg3 arg4 harg4 arg5 harg5) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of this region on core c: its arrays as the region finds them; after the body at point t each
    input's buffer still at its block and each output's at its store of the input blocks; the scoped rest and the
    generator register ride along untouched; nothing owed; the inputs' arrays held at the shares q. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI2.lean ====
/-
  The third kernel region (second graph layer and the sampled code), at the buffer contents V the region is entered
  with. At point t of its 25 the body is handed rows 400t … 400t+399 of the adjacency (window 0), the whole of the
  second region's rows (window 1), the same rows of the degree column (window 2) and of the noise (window 3), and
  leaves in the output window's buffer (4) one whole-block store of its pure term of the loaded blocks. Stated for
  any float instance: nothing here reads a value.
-/
import proofs.«108970_g8160437862604_cont_9to1_m_911_6_alg».proof.Proof.Gen.KernelIdeal.Launch
import proofs.«108970_g8160437862604_cont_9to1_m_911_6_alg».proof.Proof.Gen.KernelIdeal.Skeleton
import proofs.«108970_g8160437862604_cont_9to1_m_911_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x1 := Rect.unit (s := S400x1) ![0, 0] S400x1.size inb_S400x1_S400x1_0_0
abbrev r2_3 : Rect S400x16 := Rect.unit (s := S400x16) ![0, 0] S400x16.size inb_S400x16_S400x16_0_0
abbrev r2_4 : Rect S400x16 := Rect.unit (s := S400x16) ![0, 0] S400x16.size inb_S400x16_S400x16_0_0

/-- The output buffer after the body: one store of mean head plus exp of the log-deviation head times the noise. -/
def out2_4 (x0 : Vec F S400x10000 .f32) (x1 : Vec F S10000x32 .f32) (x2 : Vec F S400x1 .f32) (x3 : Vec F S400x16 .f32) : Vec F S400x16 .f32 :=
  View.canon [⟨r2_4, k2_pay1 (View.ld x0 r2_0) (View.ld x1 r2_1) (View.ld x2 r2_2) (View.ld x3 r2_3)⟩]

/-- Each store covers its whole buffer. -/
theorem cover2_4 (p0 : Vec F S400x16 .f32) (y : S400x16.Idx) :
    ∃ pc ∈ ([⟨r2_4, p0⟩] : List (View.Piece (Elt F) S400x16 .f32)), y ∈ pc.1.set :=
  View.cover_of_tiled [⟨r2_4, p0⟩] S400x16.size (by rfl) y

set_option maxHeartbeats 1000000 in
/-- The body on whole staging buffers: the inputs' at read contents, the outputs' at anything; it ends with the
    inputs' as they were and each output's at its one store. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole) (arg3 : Memref sig .tc .vmem S400x1 .f32) (harg3 : arg3.IsWhole) (arg4 : Memref sig .tc .vmem S400x16 .f32) (harg4 : arg4.IsWhole) (arg5 : Memref sig .tc .vmem S400x16 .f32) (harg5 : arg5.IsWhole)
    (x0 : Vec F S400x10000 .f32) (x1 : Vec F S10000x32 .f32) (x2 : Vec F S400x1 .f32) (x3 : Vec F S400x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__k3 i arg1 harg1 arg2 harg2 arg3 harg3 arg4 harg4 arg5 harg5) K := by
  simp only [cc2__k3_eq_skeleton]; unfold cc2__k3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this region on core c: its arrays as the region finds them; after the body at point t each
    input's buffer still at its block and each output's at its store of the input blocks; the scoped rest and the
    generator register ride along untouched; nothing owed; the inputs' arrays held at the shares q. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI3.lean ====
/-
  The fourth kernel region (the decoder's inner products), at the buffer contents V the region is entered with. Two
  of its windows read the SAME array, the code z: window 0 its rows 400t … 400t+399 at point t, window 1 the whole
  of it; each holds the array at a share of its own (q). The body leaves in the output window's buffer (2) one
  whole-block store of its pure term of the two loaded blocks. Stated for any float instance.
-/
import proofs.«108970_g8160437862604_cont_9to1_m_911_6_alg».proof.Proof.Gen.KernelIdeal.Launch
import proofs.«108970_g8160437862604_cont_9to1_m_911_6_alg».proof.Proof.Gen.KernelIdeal.Skeleton
import proofs.«108970_g8160437862604_cont_9to1_m_911_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (an unfetched window's
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_2 : Rect S400x10000 := Rect.unit (s := S400x10000) ![0, 0] S400x10000.size inb_S400x10000_S400x10000_0_0

/-- The output buffer after the body: one store of the row block times the whole code's transpose. -/
def out3_2 (x0 : Vec F S400x16 .f32) (x1 : Vec F S10000x16 .f32) : Vec F S400x10000 .f32 :=
  View.canon [⟨r3_2, k3_pay1 (View.ld x0 r3_0) (View.ld x1 r3_1)⟩]

/-- Each store covers its whole buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging buffers: the inputs' at read contents, the outputs' at anything; it ends with the
    inputs' as they were and each output's at its one store. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__k4 i arg1 harg1 arg2 harg2 arg3 harg3) K := by
  simp only [cc3__k4_eq_skeleton]; unfold cc3__k4_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this region on core c: its arrays as the region finds them; after the body at point t each
    input's buffer still at its block and each output's at its store of the input blocks; the scoped rest and the
    generator register ride along untouched; nothing owed; the inputs' arrays held at the shares q. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := q w
  owed _ := 0

theorem A_eq3 (q : Fin cfg3.W → PosShare TreeShare) (c : Dev nD) (w : Fin cfg3.W) : (dat3 V q c).A w = V c (Pipeline.arrRef spec3 w) := by
  dsimp only [dat3]

theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = out3_2 (iblk3 V c 0 t) (iblk3 V c 1 t) := by dsimp only [dat3]

theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d

/-- What the body is called with at point t, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' buffers hold their blocks, so the body's run applies; the invariant and the
    core's dues pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Cert.KernelIdeal.Fr

end
-- ==== Proof.KIRun.lean ====
/-
  The whole run of the program: one host operation (the two head weights stacked), then the four kernel regions in
  order. The contents of every unscoped buffer are followed from the launch through each item: a host stretch applies
  its operations; a region leaves its arrays at what its write-backs make of them and every other buffer alone. The
  run ends with every unscoped buffer at the last of these contents. Stated for any float instance.
-/
import proofs.«108970_g8160437862604_cont_9to1_m_911_6_alg».proof.Proof.KI0
import proofs.«108970_g8160437862604_cont_9to1_m_911_6_alg».proof.Proof.KI1
import proofs.«108970_g8160437862604_cont_9to1_m_911_6_alg».proof.Proof.KI2
import proofs.«108970_g8160437862604_cont_9to1_m_911_6_alg».proof.Proof.KI3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output with every point's
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output with every point's
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output with every point's
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The shares at which the fourth region's two input windows hold the one array they both read. -/
def q3 : Fin cfg3.W → PosShare TreeShare := fun w => match w with
  | ⟨0, _⟩ => fullShare.left
  | ⟨1, _⟩ => fullShare.right
  | ⟨2, _⟩ => fullShare

/-- At region 3's exit: the output array at what the write-backs leave, every other buffer as entered (its two input
    windows read one array and write nothing). -/
def W5 (c : Dev nD) : Valuation τ sig (Elt F) :=
  Function.update (W4 m ρ c) (Proc.devRef .tc (Pipeline.arrRef spec3 2)) ((dat3 (V4 m ρ) q3 c).arrAt 2 cfg3.N)
theorem W5_out (c : Dev nD) : W5 m ρ c (Proc.devRef .tc (Pipeline.arrRef spec3 2)) = (dat3 (V4 m ρ) q3 c).arrAt 2 cfg3.N := by
  unfold W5; exact Function.update_self ..
theorem W5_of_ne (c : Dev nD) (b : Ref sig .tc) (hb : Pipeline.arrRef spec3 2 ≠ b) :
    W5 m ρ c (Proc.devRef .tc b) = W4 m ρ c (Proc.devRef .tc b) := by
  unfold W5; exact Function.update_of_ne (fun e => hb (Proc.devRef_injective _ e).symm) ..
abbrev V5 : (c : Dev nD) → (b : Ref sig .tc) → Buf (Elt F) ((c : Thread nD τ).loc b) := fun c b => W5 m ρ c b

/-! ## What each item leaves alone -/

/-- The host stretch writes only the stacked weights. -/
theorem W1_keep (c : Dev nD) (b : Ref sig .tc) (hb : b ≠ main_v0) : W1 m ρ c (Proc.devRef .tc b) = m ((c : Thread nD τ).loc b) :=
  (StableHlo.after_of_forall_not_mem (b := Proc.devRef .tc b) _ _ (List.forall_iff_forall_mem.mp (by
      simp only [hostOps0, List.Forall, StableHlo.binary_writes, Finset.mem_singleton]
      exact StableHlo.devRef_ne_of_ne hb))).trans rfl

/-- Region 0 changes only its output arrays: any other buffer is an input window's array (never written) or no array
    of the region at all. -/
theorem W2_keep (c : Dev nD) (b : Ref sig .tc) (h0 : b ≠ main_v1_0) (h1 : b ≠ main_v1_1) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      revert h0 h1; revert w; decide
    exact (W2_arr m ρ c w).trans (((dat0 (V1 m ρ) c).arrAt_in w hw _).trans (A_eq0 (V1 m ρ) c w))
  · exact W2_of_ne m ρ c b fun w e => h ⟨w, e⟩

/-- Region 1 changes only its output arrays: any other buffer is an input window's array (never written) or no array
    of the region at all. -/
theorem W3_keep (c : Dev nD) (b : Ref sig .tc) (h0 : b ≠ main_v2) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      revert h0; revert w; decide
    exact (W3_arr m ρ c w).trans (((dat1 (V2 m ρ) c).arrAt_in w hw _).trans (A_eq1 (V2 m ρ) c w))
  · exact W3_of_ne m ρ c b fun w e => h ⟨w, e⟩

/-- Region 2 changes only its output arrays: any other buffer is an input window's array (never written) or no array
    of the region at all. -/
theorem W4_keep (c : Dev nD) (b : Ref sig .tc) (h0 : b ≠ main_v3) :
    W4 m ρ c (Proc.devRef .tc b) = W3 m ρ c (Proc.devRef .tc b) := by
  by_cases h : ∃ w, Pipeline.arrRef spec2 w = b
  · obtain ⟨w, rfl⟩ := h
    have hw : (cfg2.win w).isOut = false := by
      revert h0; revert w; decide
    exact (W4_arr m ρ c w).trans (((dat2 (V3 m ρ) c).arrAt_in w hw _).trans (A_eq2 (V3 m ρ) c w))
  · exact W4_of_ne m ρ c b fun w e => h ⟨w, e⟩

/-- A buffer no item writes ends as launched. -/
theorem W5_keep (c : Dev nD) (b : Ref sig .tc) (h0 : b ≠ main_v0) (h1 : b ≠ main_v1_0) (h2 : b ≠ main_v1_1) (h3 : b ≠ main_v2)
    (h4 : b ≠ main_v3) (h5 : b ≠ main_v4) : W5 m ρ c (Proc.devRef .tc b) = m ((c : Thread nD τ).loc b) :=
  (W5_of_ne m ρ c b (fun e => h5 e.symm)).trans <| (W4_keep m ρ c b h4).trans <| (W3_keep m ρ c b h3).trans <|
    (W2_keep m ρ c b h1 h2).trans (W1_keep m ρ c b h0)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) q3 c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the contents before it, left with them at the
    contents after it. Its arrays are split out of the unscoped buffers at entry and put back, at what the write-backs
    leave, at exit; the generator register goes into the region invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it. Its arrays are split out of the unscoped buffers at entry and put back, at what the write-backs
    leave, at exit; the generator register goes into the region invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it. Its arrays are split out of the unscoped buffers at entry and put back, at what the write-backs
    leave, at exit; the generator register goes into the region invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's arrays, window by window: the two input windows' one array at their two shares, the output's whole. -/
theorem arrays3_eq (c : Dev nD) (V : (c : Dev nD) → (b : Ref sig .tc) → Buf (Elt F) ((c : Thread nD τ).loc b)) (q : Fin cfg3.W → PosShare TreeShare)
    (Fn : (w : Fin cfg3.W) → Buf (Elt F) ((cfg3.win w).arr.view.loc (c : Thread nD τ))) :
    ((dat3 V q c).arrays Fn : sProp 𝕄)
      = iprop((((c : Thread nD τ).loc main_v3) ↦{q 0} Fn 0) ∗ (((c : Thread nD τ).loc main_v3) ↦{q 1} Fn 1) ∗ (((c : Thread nD τ).loc main_v4) ↦{fullShare} Fn 2)) := by
  unfold Dat.arrays
  rw [bigSep_W3, (arr_whole3 0).set_eq_univ, (arr_whole3 2).set_eq_univ]
  rfl

/-- The distinct buffers behind region 3's arrays. -/
theorem arrBufs3_eq (c : Dev nD) (V : (b : Ref sig .tc) → Buf (Elt F) ((c : Thread nD τ).loc b)) :
    (Pipeline.arrBufs spec3 c V : sProp 𝕄)
      = iprop((((c : Thread nD τ).loc main_v3) ↦{fullShare} V main_v3) ∗ (((c : Thread nD τ).loc main_v4) ↦{fullShare} V main_v4)) := by
  unfold Pipeline.arrBufs
  exact bigSep_eq_bigSepL_of_eq [main_v3, main_v4] (by decide) (by decide) _

/-- Entry of region 3: of the core's unscoped buffers, the code's buffer is dealt to the two input windows as its two
    halves, the output's buffer goes to the output window whole, the rest bypasses the region. -/
theorem entry3 (c : Dev nD) (V : (c : Dev nD) → (b : Ref sig .tc) → Buf (Elt F) ((c : Thread nD τ).loc b)) :
    (unscopedBufs c (V c) : sProp 𝕄)
      ⊢ iprop((dat3 V q3 c).arrays ((dat3 V q3 c).arrAt · 0) ∗ Pipeline.unscopedRest spec3 c (V c)) := by
  rw [Pipeline.unscopedBufs_split₀ cfgs 3 winFacts₀3.arr_unscoped c (V c), arrays3_eq]
  rw [show (Pipeline.arrBufs (cfgs 3).spec c (V c) : sProp 𝕄) = Pipeline.arrBufs spec3 c (V c) from rfl, arrBufs3_eq]
  rw [show q3 0 = fullShare.left from rfl, show q3 1 = fullShare.right from rfl]
  have hs : ((((c : Thread nD τ).loc main_v3) ↦{fullShare} V c main_v3) : sProp 𝕄)
      ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨⟨H3, H4⟩, Hrest⟩
  ihave H := hs $$ H3
  icases H with ⟨Hl, Hr⟩
  isplitr [Hrest]
  · isplitl [Hl]; · iexact Hl
    isplitl [Hr]; · iexact Hr
    iexact H4
  iexact Hrest

/-- Exit of region 3: the two halves of the code's buffer, both still at the entry contents, are joined; the output's
    buffer holds what the write-backs left; with the rest these are the core's unscoped buffers at the exit contents. -/
theorem exit3 (c : Dev nD) :
    iprop((dat3 (V4 m ρ) q3 c).arrays ((dat3 (V4 m ρ) q3 c).arrAt · cfg3.N) ∗ Pipeline.unscopedRest spec3 c (V4 m ρ c))
      ⊢ (unscopedBufs c (V5 m ρ c) : sProp 𝕄) := by
  have hrest : (Pipeline.unscopedRest spec3 c (V5 m ρ c) : sProp 𝕄) = Pipeline.unscopedRest spec3 c (V4 m ρ c) := by
    unfold Pipeline.unscopedRest
    exact bigSep_congr fun b hb => by
      rw [show V5 m ρ c b = V4 m ρ c b from W5_of_ne m ρ c b (fun e => (Finset.mem_sdiff.mp hb).2 (Finset.mem_image.mpr ⟨2, Finset.mem_univ _, e⟩))]
  have e0 : (dat3 (V4 m ρ) q3 c).arrAt 0 cfg3.N = V4 m ρ c main_v3 :=
    ((dat3 (V4 m ρ) q3 c).arrAt_in 0 rfl _).trans (A_eq3 (V4 m ρ) q3 c 0)
  have e1 : (dat3 (V4 m ρ) q3 c).arrAt 1 cfg3.N = V4 m ρ c main_v3 :=
    ((dat3 (V4 m ρ) q3 c).arrAt_in 1 rfl _).trans (A_eq3 (V4 m ρ) q3 c 1)
  have e3 : V5 m ρ c main_v3 = V4 m ρ c main_v3 := W5_of_ne m ρ c main_v3 (by decide)
  have e4 : V5 m ρ c main_v4 = (dat3 (V4 m ρ) q3 c).arrAt 2 cfg3.N := W5_out m ρ c
  rw [Pipeline.unscopedBufs_split₀ cfgs 3 winFacts₀3.arr_unscoped c (V5 m ρ c), arrays3_eq]
  rw [show (Pipeline.arrBufs (cfgs 3).spec c (V5 m ρ c) : sProp 𝕄) = Pipeline.arrBufs spec3 c (V5 m ρ c) from rfl, arrBufs3_eq,
    show (Pipeline.unscopedRest (cfgs 3).spec c (V5 m ρ c) : sProp 𝕄) = Pipeline.unscopedRest spec3 c (V5 m ρ c) from rfl, hrest, e0, e1, e3, e4]
  rw [show q3 0 = fullShare.left from rfl, show q3 1 = fullShare.right from rfl]
  have hj : iprop((((c : Thread nD τ).loc main_v3) ↦{fullShare.left} V4 m ρ c main_v3) ∗ (((c : Thread nD τ).loc main_v3) ↦{fullShare.right} V4 m ρ c main_v3))
      ⊢ ((((c : Thread nD τ).loc main_v3) ↦{fullShare} V4 m ρ c main_v3) : sProp 𝕄) :=
    (pointsTo_share (PosShare.mem_left_op_right fullShare)).2
  iintro ⟨⟨Hl, Hr, H4⟩, Hrest⟩
  isplitr [Hrest]
  · isplitr [H4]
    · iapply hj
      isplitl [Hl]; · iexact Hl
      iexact Hr
    iexact H4
  iexact Hrest

set_option backward.isDefEq.respectTransparency.types false in
/-- Region 3 as a segment. Its two input windows read one array: at entry that buffer, whole at the full share, is
    dealt to the two windows as its two halves; at exit the halves, both still at the entry contents, are joined. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) q3 c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0) ∗ Pipeline.unscopedRest (Ix := Unit) (Name := ℕ) (U := UR sig nD τ) (Lvl := ℕ) spec3 c (V4 m ρ c)) :=
      entry3 (F := F) c (V4 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest (Ix := Unit) (Name := ℕ) (U := UR sig nD τ) (Lvl := ℕ) spec3 c (V4 m ρ c))
        ⊢ (unscopedBufs c (V5 m ρ c) : sProp 𝕄) := exit3 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution of @main terminates, nothing faulting, and the six argument arrays end as
    launched (no item writes one). -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_keep m ρ c main_arg0 (by decide) (by decide) (by decide) (by decide) (by decide) (by decide)),
     (h c _ (mem_uc main_arg1 (by decide))).trans (W5_keep m ρ c main_arg1 (by decide) (by decide) (by decide) (by decide) (by decide) (by decide)),
     (h c _ (mem_uc main_arg2 (by decide))).trans (W5_keep m ρ c main_arg2 (by decide) (by decide) (by decide) (by decide) (by decide) (by decide)),
     (h c _ (mem_uc main_arg3 (by decide))).trans (W5_keep m ρ c main_arg3 (by decide) (by decide) (by decide) (by decide) (by decide) (by decide)),
     (h c _ (mem_uc main_arg4 (by decide))).trans (W5_keep m ρ c main_arg4 (by decide) (by decide) (by decide) (by decide) (by decide) (by decide)),
     (h c _ (mem_uc main_arg5 (by decide))).trans (W5_keep m ρ c main_arg5 (by decide) (by decide) (by decide) (by decide) (by decide) (by decide))⟩)
    (run_all m ρ)

end Cert.KernelIdeal.Fr

end
-- ==== Proof.Spec.lean ====
/-
  The mathematics of the two programs, stated once over the extended reals, index by index.

  A dense graph autoencoder forward pass on N = 10000 nodes. With a the adjacency (N×N), h the features (N×128),
  w0 (64×128), wmu, wls (16×64) the weights and eps (N×16) the noise:

    deg i   = Σ_k a i k                          the row degree
    nrm i   = rsqrt (max (deg i) 1)              the symmetric normalisation
    g1 i j  = Σ_l (h i l · nrm i) · w0 j l       features scaled and projected
    h0 i j  = max ((Σ_k a i k · g1 k j) · nrm i) 0
    g2 i j  = Σ_l (h0 i l · nrm i) · wc j l      wc = wmu stacked on wls (32×64)
    y  i j  = (Σ_k a i k · g2 k j) · nrm i
    z  i j  = y i j + exp (y i (16 + j)) · eps i j
    logits i j = Σ_l z i l · z j l

  No law beyond the definitions is used to join the two programs except: a power with exponent −1/2 of a number
  that is at least 1 (or +∞) is its reciprocal square root.
-/
import Idealize.ShloMosaic.PureOps.Ideal
import Idealize.ShloMosaic.Lib.ValueIdx

noncomputable section

open scoped BigOperators

namespace Cert.Spec

open Idealize.ShloMosaic

/-- The f32 pattern of 1.0, kept as the programs print it. -/
abbrev one : EReal := Ideal.ofBits .f32 0x3F800000#32
/-- The f32 pattern of 0.0, kept as the programs print it. -/
abbrev zero : EReal := Ideal.ofBits .f32 0x00000000#32

variable (a : Fin 10000 → Fin 10000 → EReal) (h : Fin 10000 → Fin 128 → EReal) (w0 : Fin 64 → Fin 128 → EReal)
  (wmu wls : Fin 16 → Fin 64 → EReal) (eps : Fin 10000 → Fin 16 → EReal)

/-- The row degree. -/
def deg (i : Fin 10000) : EReal := ∑ k : Fin 10000, a i k
/-- The normalisation 1/√(max(deg, 1)). -/
def nrm (i : Fin 10000) : EReal := Ideal.rsqrt (max (deg a i) one)
/-- The two 16×64 weights stacked: rows 0–15 are wmu's, rows 16–31 are wls's. -/
def wc (j : Fin 32) (l : Fin 64) : EReal :=
  if hj : j.val < 16 then wmu ⟨j.val, hj⟩ l else wls ⟨j.val - 16, by omega⟩ l
/-- First layer before aggregation: scaled features times w0ᵀ. -/
def g1 (i : Fin 10000) (j : Fin 64) : EReal := ∑ l : Fin 128, (h i l * nrm a i) * w0 j l
/-- First layer: aggregate, scale, rectify. -/
def h0 (i : Fin 10000) (j : Fin 64) : EReal := max ((∑ k : Fin 10000, a i k * g1 a h w0 k j) * nrm a i) zero
/-- Second layer before aggregation, both heads at once. -/
def g2 (i : Fin 10000) (j : Fin 32) : EReal := ∑ l : Fin 64, (h0 a h w0 i l * nrm a i) * wc wmu wls j l
/-- Second layer: aggregate and scale; columns 0–15 the mean head, 16–31 the log-deviation head. -/
def y (i : Fin 10000) (j : Fin 32) : EReal := (∑ k : Fin 10000, a i k * g2 a h w0 wmu wls k j) * nrm a i
/-- The sampled code. -/
def z (i : Fin 10000) (j : Fin 16) : EReal :=
  y a h w0 wmu wls i ⟨j.val, by omega⟩ + Ideal.exp (y a h w0 wmu wls i ⟨16 + j.val, by omega⟩) * eps i j
/-- The decoder's inner products. -/
def logits (i j : Fin 10000) : EReal := ∑ l : Fin 16, z a h w0 wmu wls eps i l * z a h w0 wmu wls eps j l

/-- A rank-2 array read by its two coordinates. -/
def arr2 {n0 n1 : Nat} (f : (⟨2, ![n0, n1]⟩ : Shape).Idx → EReal) : Fin n0 → Fin n1 → EReal := fun p q => f (ValueIdx.ix2 p q)

/-- The result array of both programs, as one function of the six argument arrays. -/
def logitsArr (a : (⟨2, ![10000, 10000]⟩ : Shape).Idx → EReal) (h : (⟨2, ![10000, 128]⟩ : Shape).Idx → EReal)
    (w0 : (⟨2, ![64, 128]⟩ : Shape).Idx → EReal) (wmu wls : (⟨2, ![16, 64]⟩ : Shape).Idx → EReal)
    (eps : (⟨2, ![10000, 16]⟩ : Shape).Idx → EReal) : (⟨2, ![10000, 10000]⟩ : Shape).Idx → EReal :=
  fun i => logits (arr2 a) (arr2 h) (arr2 w0) (arr2 wmu) (arr2 wls) (arr2 eps) (i 0) (i 1)

end Cert.Spec

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.LibColumnLayouts.lean ====
/-
  Small layout operations read at an index: a column `[a, 1]` recast as a vector `[a]` and back, a column broadcast along a
  second axis, and arrays with a single element. Each reads the operand at the position with the same row-major rank.
-/
import Idealize.ShloMosaic.Lib.Pipeline.Value
import Idealize.ShloMosaic.Lib.ValueIdx

noncomputable section

namespace Cert.GridLoss

open Idealize.ShloMosaic Idealize.ShloMosaic.ValueIdx

variable {α : Type}

/-- A column `[a, 1]` recast as `[a]` reads, at `i`, the column at `(i, 0)`. -/
theorem shapeCast_col_vec_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` recast as a column `[a, 1]` reads, at `(i, u)`, the vector at `i`. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `(p, 0)`. -/
theorem broadcastTo_col_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- Column `c` of an `[a, 2]` array cut out as a column `[a, 1]` reads, at `(i, u)`, the array at `(i, c)`. -/
theorem slice_col_apply {a : ℕ} (x : (⟨2, ![a, 2]⟩ : Shape).Idx → α) (c : Fin 2) (off : Fin 2 → Nat)
    (h0 : off 0 = 0) (h1 : off 1 = c.val) (h : (⟨2, ![a, 2]⟩ : Shape).Slices off ⟨2, ![a, 1]⟩) (i : Fin a) (u : Fin 1) :
    extractStridedSlice ⟨2, ![a, 1]⟩ off x h (ix2 i u) = x (ix2 i c) :=
  extractStridedSlice_apply off x h (ix2 i u) (ix2 i c) (fun ax => match ax with
    | ⟨0, _⟩ => by show i.val = off 0 + i.val; rw [h0]; omega
    | ⟨1, _⟩ => by show c.val = off 1 + u.val; rw [h1]; omega)

end Cert.GridLoss

end
-- ==== Proof.PayLib.lean ====
/-
  The symmetric normalisation as the kernels compute it, read at an index.

  Each of the first three kernels takes the column of row degrees of its block (400×1), bounds it below by 1,
  takes the reciprocal square root and spreads the column over the b columns of the value it scales. At row r
  and any column the result is rsqrt (max d 1), d the degree in row r.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibColumnLayouts

noncomputable section

open scoped BigOperators

namespace Cert.Pay

open Idealize.ShloMosaic Idealize.ShloMosaic.ValueIdx Cert.KernelIdeal Cert.KernelIdeal.Gen

/-- The bounded degree's reciprocal square root at row r of the column. -/
theorem nrm_col (v : FVec Ideal S400x1 .f32) (d : EReal) (r : Fin 400) (hv : v (ix2 r (0 : Fin 1)) = d) :
    rsqrt (maximumf v (broadcast S400x1 (Scalar.ofBits (F := Ideal) .f32 0x3F800000#32))) (ix2 r (0 : Fin 1))
      = Ideal.rsqrt (max d Cert.Spec.one) := by
  show Ideal.rsqrt (max (v (ix2 r (0 : Fin 1))) (Ideal.ofBits .f32 0x3F800000#32)) = _
  rw [hv]

/-- The same column spread over b columns, read at (r, c). -/
theorem nrm_spread {b : ℕ} (v : FVec Ideal S400x1 .f32) (hb : S400x1.Broadcasts ⟨2, ![400, b]⟩) (d : EReal)
    (r : Fin 400) (c : Fin b) (hv : v (ix2 r (0 : Fin 1)) = d) :
    broadcastTo ⟨2, ![400, b]⟩ (rsqrt (maximumf v (broadcast S400x1 (Scalar.ofBits (F := Ideal) .f32 0x3F800000#32)))) hb
        (ix2 r c) = Ideal.rsqrt (max d Cert.Spec.one) :=
  (Cert.GridLoss.broadcastTo_col_apply (by decide) _ hb r c).trans (nrm_col v d r hv)

end Cert.Pay

end
-- ==== Proof.Pay0.lean ====
/-
  The first kernel's arithmetic at an index, over the extended reals.

  The body reads a 400×10000 block of the adjacency, the matching 400×128 block of features and the 64×128 weight.
  It sums each adjacency row (the degree), and multiplies the features, each row scaled by the reciprocal square
  root of its degree bounded below by 1, by the transposed weight into a zero accumulator. At row r of the block
  (global row i) the first result is  deg i = Σ_k a i k  and the second, at column j,
      g1 i j = Σ_{l < 128} (h i l · nrm i) · w0 j l.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibPlainDot
import proofs.«108970_g8160437862604_cont_9to1_m_911_6_alg».proof.Proof.LibRowRead
import proofs.«108970_g8160437862604_cont_9to1_m_911_6_alg».proof.Proof.PayLib
import Idealize.ShloMosaic.Lib.ValueLayout

noncomputable section

open scoped BigOperators

namespace Cert.Pay

open Idealize.ShloMosaic Idealize.ShloMosaic.ValueIdx Cert.KernelIdeal Cert.KernelIdeal.Gen

/-- The row degree of the block's row r, as the column the body stores. -/
theorem pay0_1 (v0 : Vec Ideal S400x10000 .f32) (a : Fin 10000 → Fin 10000 → EReal) (i : Fin 10000) (r : Fin 400)
    (hv0 : ∀ k : Fin 10000, v0 (ix2 r k) = a i k) :
    k0_pay1 (F := Ideal) v0 (ix2 r (0 : Fin 1)) = Cert.Spec.deg a i := by
  unfold k0_pay1
  refine (Cert.Lib.RowRead.shapeCast_a_a1_apply _ _ r 0).trans ?_
  refine (Cert.Lib.RowRead.lane_sum v0 _ _ _ r).trans ?_
  unfold Cert.Spec.deg
  exact Finset.sum_congr rfl fun k _ => hv0 k

/-- The first projection's dimension numbers are those of a plain 400×128 by 128×64 product. -/
theorem dims0_eq : dot_S400x128_S128x64_S400x64_1_0_0_1_n_n = DotDims.plain 400 128 64 := rfl

/-- The scaled features times the transposed weight at row r of the block (global row i) and column j. -/
theorem pay0_2 (v0 : Vec Ideal S400x10000 .f32) (v7 : Vec Ideal S400x128 .f32) (v10 : Vec Ideal S64x128 .f32)
    (a : Fin 10000 → Fin 10000 → EReal) (h : Fin 10000 → Fin 128 → EReal) (w0 : Fin 64 → Fin 128 → EReal)
    (i : Fin 10000) (r : Fin 400) (hv0 : ∀ k : Fin 10000, v0 (ix2 r k) = a i k)
    (hv7 : ∀ l : Fin 128, v7 (ix2 r l) = h i l) (hv10 : ∀ (j : Fin 64) (l : Fin 128), v10 (ix2 j l) = w0 j l)
    (j : Fin 64) : k0_pay2 (F := Ideal) v0 v7 v10 (ix2 r j) = Cert.Spec.g1 a h w0 i j := by
  unfold k0_pay2
  rw [dims0_eq]
  refine (congrFun (Cert.Lib.PlainDot.matmul_zero none _ _) (ix2 r j)).trans ?_
  rw [Cert.Lib.PlainDot.mm_apply]
  unfold Cert.Spec.g1
  refine Finset.sum_congr rfl fun l _ => ?_
  rw [mulf_apply, transpose_ix2_apply, nrm_spread _ _ (Cert.Spec.deg a i) r l (pay0_1 v0 a i r hv0), hv7, hv10]
  rfl

end Cert.Pay

end
-- ==== Proof.KVal0.lean ====
/-
  The first region's two output arrays, index by index.

  The grid has 25 points. At point t the body is handed rows 400t … 400t+399 of the adjacency (window 0) and of the
  features (window 1) and the whole of w0 (window 2); it stores the row sums of its adjacency block into rows
  400t … 400t+399 of the degree column (window 3), and the scaled feature rows times w0ᵀ into the same rows of the
  projected array (window 4). The 25 row blocks tile each output, so the degree column at (p, 0) is deg p and the
  projected array at (p, j) is g1 p j.
-/
import proofs.«108970_g8160437862604_cont_9to1_m_911_6_alg».proof.Proof.KI0
import proofs.«108970_g8160437862604_cont_9to1_m_911_6_alg».proof.Proof.Pay0
import proofs.«108970_g8160437862604_cont_9to1_m_911_6_alg».proof.Proof.Spec
import Idealize.ShloMosaic.Lib.Pipeline.Value

noncomputable section

open scoped BigOperators

namespace Cert.KVal

open Cert.KernelIdeal Cert.KernelIdeal.Gen Cert.KernelIdeal.Fr Idealize.ShloMosaic Idealize.ShloMosaic.ValueIdx
open Idealize.ShloMosaic.TcCoe Idealize.SL Idealize.SL.RA
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ### The block indices over the grid: row-block windows sit at block (t, 0), the whole-array window at (0, 0) -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)

/-! ### The input blocks, read at an index -/

/-- Window 0's block at point t, read at (r, l), is the adjacency at row 400t + r. -/
theorem iblk0_0_apply (c : Dev nD) (t : Fin cfg0.N) (r : Fin 400) (l : Fin 10000) (p : Fin 10000)
    (hp : p.val = 400 * t.val + r.val) :
    (iblk0 V c 0 t : Vec Ideal S400x10000 .f32) (ix2 r l) = (V c main_arg0 : S10000x10000.Idx → EReal) (ix2 p l) := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 400 + 1 * r.val = p.val; rw [e0, hp]; omega
  | ⟨1, _⟩ => show win0_0.index t (1 : Fin 2) * 10000 + 1 * l.val = l.val; rw [e1]; omega

/-- Window 1's block at point t, read at (r, l), is the feature array at row 400t + r. -/
theorem iblk0_1_apply (c : Dev nD) (t : Fin cfg0.N) (r : Fin 400) (l : Fin 128) (p : Fin 10000)
    (hp : p.val = 400 * t.val + r.val) :
    (iblk0 V c 1 t : Vec Ideal S400x128 .f32) (ix2 r l) = (V c main_arg1 : S10000x128.Idx → EReal) (ix2 p l) := by
  obtain ⟨e0, e1⟩ := idx0_1 t
  unfold iblk0
  rw [View.read_apply]
  show V c main_arg1 _ = V c main_arg1 _
  congr 1
  funext a
  apply Fin.ext
  match a with
  | ⟨0, _⟩ => show win0_1.index t (0 : Fin 2) * 400 + 1 * r.val = p.val; rw [e0, hp]; omega
  | ⟨1, _⟩ => show win0_1.index t (1 : Fin 2) * 128 + 1 * l.val = l.val; rw [e1]; omega

/-- Window 2's block at any point is the whole of the weight w0. -/
theorem iblk0_2_apply (c : Dev nD) (t : Fin cfg0.N) (j : Fin 64) (l : Fin 128) :
    (iblk0 V c 2 t : Vec Ideal S64x128 .f32) (ix2 j l) = (V c main_arg2 : S64x128.Idx → EReal) (ix2 j l) := by
  obtain ⟨e0, e1⟩ := idx0_2 t
  unfold iblk0
  rw [View.read_apply]
  show V c main_arg2 _ = V c main_arg2 _
  congr 1
  funext a
  apply Fin.ext
  match a with
  | ⟨0, _⟩ => show win0_2.index t (0 : Fin 2) * 64 + 1 * j.val = j.val; rw [e0]; omega
  | ⟨1, _⟩ => show win0_2.index t (1 : Fin 2) * 128 + 1 * l.val = l.val; rw [e1]; omega

/-! ### The output buffers after the body, over any loaded blocks whose rows are rows of the arrays -/

theorem out0_3_point (x0 : Vec Ideal S400x10000 .f32) (a : Fin 10000 → Fin 10000 → EReal) (i : Fin 10000) (r : Fin 400)
    (h0 : ∀ k : Fin 10000, x0 (ix2 r k) = a i k) (q : Fin 1) :
    out0_3 (F := Ideal) x0 (ix2 r q) = Cert.Spec.deg a i := by
  unfold out0_3
  rw [View.canon_unit_zero hz0]
  simp only [View.ld_unit_zero (S := S400x10000) hz0]
  obtain rfl : q = 0 := Subsingleton.elim q 0
  exact Cert.Pay.pay0_1 x0 a i r h0

theorem out0_4_point (x0 : Vec Ideal S400x10000 .f32) (x1 : Vec Ideal S400x128 .f32) (x2 : Vec Ideal S64x128 .f32)
    (a : Fin 10000 → Fin 10000 → EReal) (h : Fin 10000 → Fin 128 → EReal) (w0 : Fin 64 → Fin 128 → EReal) (i : Fin 10000) (r : Fin 400)
    (h0 : ∀ k : Fin 10000, x0 (ix2 r k) = a i k) (h1 : ∀ l : Fin 128, x1 (ix2 r l) = h i l)
    (h2 : ∀ (j : Fin 64) (l : Fin 128), x2 (ix2 j l) = w0 j l) (j : Fin 64) :
    out0_4 (F := Ideal) x0 x1 x2 (ix2 r j) = Cert.Spec.g1 a h w0 i j := by
  unfold out0_4
  rw [View.canon_unit_zero hz0]
  simp only [View.ld_unit_zero (S := S400x10000) hz0, View.ld_unit_zero (S := S400x128) hz0,
    View.ld_unit_zero (S := S64x128) hz0]
  exact Cert.Pay.pay0_2 x0 x1 x2 a h w0 i r h0 h1 h2 j

/-! ### The output arrays as functions of their index -/

/-- The degree column. -/
def Gd0 (a : Fin 10000 → Fin 10000 → EReal) : S10000x1.Idx → EReal := fun i => Cert.Spec.deg a (i 0)
/-- The projected features. -/
def Gg0 (a : Fin 10000 → Fin 10000 → EReal) (h : Fin 10000 → Fin 128 → EReal) (w0 : Fin 64 → Fin 128 → EReal) : S10000x64.Idx → EReal := fun i => Cert.Spec.g1 a h w0 (i 0) (i 1)

/-- An index of the output array is in point t's block iff each coordinate is in the block's range on its axis. -/
theorem mem_blk0_3 (t : Fin cfg0.N) (i : S10000x1.Idx) :
    i ∈ ((cfg0.win 3).blk t).view.set ↔ ∀ a : Fin 2, win0_3.index t a * S400x1.size a ≤ (i a).val ∧ (i a).val < win0_3.index t a * S400x1.size a + S400x1.size a := by
  show i ∈ ((View.whole main_v1_0).slice (win0_3.rect t)).set ↔ _
  rw [View.set_slice_whole, Rect.mem_set_unit]
  exact Iff.rfl

/-- An index of the output array is in point t's block iff each coordinate is in the block's range on its axis. -/
theorem mem_blk0_4 (t : Fin cfg0.N) (i : S10000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v1_1).slice (win0_4.rect t)).set ↔ _
  rw [View.set_slice_whole, Rect.mem_set_unit]
  exact Iff.rfl

/-- What point t writes back to the degree column is block t of Gd0. -/
theorem flushed0_3_eq (c : Dev nD) (a : Fin 10000 → Fin 10000 → EReal) (hA : ∀ (p q : Fin 10000), (V c main_arg0 : S10000x10000.Idx → EReal) (ix2 p q) = a p q) (t : Fin cfg0.N) :
    (dat0 (F := Ideal) V c).flushed 3 t = ((cfg0.win 3).blk t).view.read (Elt Ideal) (Gd0 a) := by
  show (cfg0.win 3).cut (grid0.coords t) ((dat0 V c).after 3 t) = _
  rw [after0_3]
  obtain ⟨e0, e1⟩ := idx0_3 t
  have hN : t.val < 25 := lt_of_lt_of_eq t.isLt N_0
  funext y
  obtain ⟨r, q, rfl⟩ : ∃ (r : Fin 400) (q : Fin 1), y = ix2 r q := ⟨y 0, y 1, eq_ix2 y⟩
  have hp : 400 * t.val + r.val < 10000 := by have := r.isLt; omega
  show out0_3 (iblk0 V c 0 t) (ix2 r q) = Gd0 a (((cfg0.win 3).blk t).view.emb (ix2 r q))
  refine (out0_3_point (iblk0 V c 0 t) a ⟨400 * t.val + r.val, hp⟩ r
    (fun k => (iblk0_0_apply V c t r k ⟨400 * t.val + r.val, hp⟩ rfl).trans (hA _ k)) q).trans ?_
  unfold Gd0
  exact congrArg (Cert.Spec.deg a) (Fin.ext (by
      show 400 * t.val + r.val = win0_3.index t (0 : Fin 2) * 400 + 1 * r.val
      rw [e0]; omega))

/-- What point t writes back to the projected array is block t of Gg0. -/
theorem flushed0_4_eq (c : Dev nD) (a : Fin 10000 → Fin 10000 → EReal) (h : Fin 10000 → Fin 128 → EReal) (w0 : Fin 64 → Fin 128 → EReal) (hA : ∀ (p q : Fin 10000), (V c main_arg0 : S10000x10000.Idx → EReal) (ix2 p q) = a p q)
    (hH : ∀ (p : Fin 10000) (l : Fin 128), (V c main_arg1 : S10000x128.Idx → EReal) (ix2 p l) = h p l)
    (hW : ∀ (j : Fin 64) (l : Fin 128), (V c main_arg2 : S64x128.Idx → EReal) (ix2 j l) = w0 j l) (t : Fin cfg0.N) :
    (dat0 (F := Ideal) V c).flushed 4 t = ((cfg0.win 4).blk t).view.read (Elt Ideal) (Gg0 a h w0) := by
  show (cfg0.win 4).cut (grid0.coords t) ((dat0 V c).after 4 t) = _
  rw [after0_4]
  obtain ⟨e0, e1⟩ := idx0_4 t
  have hN : t.val < 25 := lt_of_lt_of_eq t.isLt N_0
  funext y
  obtain ⟨r, j, rfl⟩ : ∃ (r : Fin 400) (j : Fin 64), y = ix2 r j := ⟨y 0, y 1, eq_ix2 y⟩
  have hp : 400 * t.val + r.val < 10000 := by have := r.isLt; omega
  show out0_4 (iblk0 V c 0 t) (iblk0 V c 1 t) (iblk0 V c 2 t) (ix2 r j) = Gg0 a h w0 (((cfg0.win 4).blk t).view.emb (ix2 r j))
  refine (out0_4_point (iblk0 V c 0 t) (iblk0 V c 1 t) (iblk0 V c 2 t) a h w0 ⟨400 * t.val + r.val, hp⟩ r
    (fun k => (iblk0_0_apply V c t r k ⟨400 * t.val + r.val, hp⟩ rfl).trans (hA _ k))
    (fun l => (iblk0_1_apply V c t r l ⟨400 * t.val + r.val, hp⟩ rfl).trans (hH _ l))
    (fun j l => (iblk0_2_apply V c t j l).trans (hW j l)) j).trans ?_
  unfold Gg0
  congr 1
  · exact (Fin.ext (by
      show 400 * t.val + r.val = win0_4.index t (0 : Fin 2) * 400 + 1 * r.val
      rw [e0]; omega))
  · exact (Fin.ext (by
      show j.val = win0_4.index t (1 : Fin 2) * 64 + 1 * j.val
      rw [e1]; omega))

/-- The degree column ends holding the row degrees. -/
theorem final0_d (c : Dev nD) (a : Fin 10000 → Fin 10000 → EReal) (hA : ∀ (p q : Fin 10000), (V c main_arg0 : S10000x10000.Idx → EReal) (ix2 p q) = a p q) :
    ∀ (p : Fin 10000) (q : Fin 1), (dat0 (F := Ideal) V c).arrAt 3 cfg0.N (ix2 p q) = Cert.Spec.deg a p := by
  have hfin : (dat0 (F := Ideal) V c).arrAt 3 cfg0.N = Gd0 a :=
    (dat0 (F := Ideal) V c).arrAt_eq_of_cover 3 (Gd0 a)
      (fun t _ => flushed0_3_eq V c a hA t) (fun i => by
        have hi0 : (i 0).val < 10000 := (i 0).isLt
        have hi1 : (i 1).val < 1 := (i 1).isLt
        have ht : (i 0).val / 400 < cfg0.N := by rw [show cfg0.N = 25 from N_0]; omega
        obtain ⟨e0, e1⟩ := idx0_3 ⟨(i 0).val / 400, ht⟩
        refine ⟨⟨(i 0).val / 400, ht⟩, flush0_3 _, ?_⟩
        rw [mem_blk0_3]
        intro a
        match a with
        | ⟨0, _⟩ =>
          show win0_3.index ⟨(i 0).val / 400, ht⟩ (0 : Fin 2) * 400 ≤ (i 0).val ∧ (i 0).val < win0_3.index ⟨(i 0).val / 400, ht⟩ (0 : Fin 2) * 400 + 400
          rw [e0]; show (i 0).val / 400 * 400 ≤ (i 0).val ∧ (i 0).val < (i 0).val / 400 * 400 + 400; omega
        | ⟨1, _⟩ =>
          show win0_3.index ⟨(i 0).val / 400, ht⟩ (1 : Fin 2) * 1 ≤ (i 1).val ∧ (i 1).val < win0_3.index ⟨(i 0).val / 400, ht⟩ (1 : Fin 2) * 1 + 1
          rw [e1]; omega)
  intro p q
  rw [hfin]
  rfl

/-- The projected array ends holding g1. -/
theorem final0_g (c : Dev nD) (a : Fin 10000 → Fin 10000 → EReal) (h : Fin 10000 → Fin 128 → EReal) (w0 : Fin 64 → Fin 128 → EReal) (hA : ∀ (p q : Fin 10000), (V c main_arg0 : S10000x10000.Idx → EReal) (ix2 p q) = a p q)
    (hH : ∀ (p : Fin 10000) (l : Fin 128), (V c main_arg1 : S10000x128.Idx → EReal) (ix2 p l) = h p l)
    (hW : ∀ (j : Fin 64) (l : Fin 128), (V c main_arg2 : S64x128.Idx → EReal) (ix2 j l) = w0 j l) :
    ∀ (p : Fin 10000) (j : Fin 64), (dat0 (F := Ideal) V c).arrAt 4 cfg0.N (ix2 p j) = Cert.Spec.g1 a h w0 p j := by
  have hfin : (dat0 (F := Ideal) V c).arrAt 4 cfg0.N = Gg0 a h w0 :=
    (dat0 (F := Ideal) V c).arrAt_eq_of_cover 4 (Gg0 a h w0)
      (fun t _ => flushed0_4_eq V c a h w0 hA hH hW t) (fun i => by
        have hi0 : (i 0).val < 10000 := (i 0).isLt
        have hi1 : (i 1).val < 64 := (i 1).isLt
        have ht : (i 0).val / 400 < cfg0.N := by rw [show cfg0.N = 25 from N_0]; omega
        obtain ⟨e0, e1⟩ := idx0_4 ⟨(i 0).val / 400, ht⟩
        refine ⟨⟨(i 0).val / 400, ht⟩, flush0_4 _, ?_⟩
        rw [mem_blk0_4]
        intro a
        match a with
        | ⟨0, _⟩ =>
          show win0_4.index ⟨(i 0).val / 400, ht⟩ (0 : Fin 2) * 400 ≤ (i 0).val ∧ (i 0).val < win0_4.index ⟨(i 0).val / 400, ht⟩ (0 : Fin 2) * 400 + 400
          rw [e0]; show (i 0).val / 400 * 400 ≤ (i 0).val ∧ (i 0).val < (i 0).val / 400 * 400 + 400; omega
        | ⟨1, _⟩ =>
          show win0_4.index ⟨(i 0).val / 400, ht⟩ (1 : Fin 2) * 64 ≤ (i 1).val ∧ (i 1).val < win0_4.index ⟨(i 0).val / 400, ht⟩ (1 : Fin 2) * 64 + 64
          rw [e1]; omega)
  intro p j
  rw [hfin]
  rfl

end Cert.KVal

end
-- ==== Proof.Pay1.lean ====
/-
  The second kernel's arithmetic at an index, over the extended reals.

  The body multiplies a 400×10000 block of the adjacency by the whole 10000×64 first-layer array, scales each row
  by the reciprocal square root of its degree bounded below by 1, takes the maximum with 0, scales the row again
  and multiplies by the transposed stacked weight (32×64), both products into zero accumulators. At row r of the
  block (global row i) and column j the result is
      g2 i j = Σ_{l < 64} (h0 i l · nrm i) · wc j l,   h0 i l = max ((Σ_k a i k · g1 k l) · nrm i) 0.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibPlainDot
import proofs.«108970_g8160437862604_cont_9to1_m_911_6_alg».proof.Proof.PayLib
import Idealize.ShloMosaic.Lib.ValueLayout
import Idealize.ShloMosaic.Lib.Pipeline.Value

noncomputable section

open scoped BigOperators

namespace Cert.Pay

open Idealize.ShloMosaic Idealize.ShloMosaic.ValueIdx Cert.KernelIdeal Cert.KernelIdeal.Gen

/-- The aggregation's dimension numbers are those of a plain 400×10000 by 10000×64 product. -/
theorem dims1a_eq : dot_S400x10000_S10000x64_S400x64_1_0_0_1_n_n = DotDims.plain 400 10000 64 := rfl

/-- The second projection's dimension numbers are those of a plain 400×64 by 64×32 product. -/
theorem dims1b_eq : dot_S400x64_S64x32_S400x32_1_0_0_1_n_n = DotDims.plain 400 64 32 := rfl

/-- The second layer before aggregation at row r of the block (global row i) and column j. -/
theorem pay1_1 (v0 : Vec Ideal S400x10000 .f32) (v1 : Vec Ideal S10000x64 .f32) (v4 : Vec Ideal S400x1 .f32)
    (v15 : Vec Ideal S32x64 .f32) (a : Fin 10000 → Fin 10000 → EReal) (h : Fin 10000 → Fin 128 → EReal)
    (w0 : Fin 64 → Fin 128 → EReal) (wmu wls : Fin 16 → Fin 64 → EReal) (i : Fin 10000) (r : Fin 400)
    (hv0 : ∀ k : Fin 10000, v0 (ix2 r k) = a i k)
    (hv1 : ∀ (k : Fin 10000) (j : Fin 64), v1 (ix2 k j) = Cert.Spec.g1 a h w0 k j)
    (hv4 : v4 (ix2 r (0 : Fin 1)) = Cert.Spec.deg a i)
    (hv15 : ∀ (j : Fin 32) (l : Fin 64), v15 (ix2 j l) = Cert.Spec.wc wmu wls j l) (j : Fin 32) :
    k1_pay1 (F := Ideal) v0 v1 v4 v15 (ix2 r j) = Cert.Spec.g2 a h w0 wmu wls i j := by
  unfold k1_pay1
  rw [shapeCast_self, shapeCast_self, shapeCast_self, dims1a_eq, dims1b_eq]
  refine (congrFun (Cert.Lib.PlainDot.matmul_zero none _ _) (ix2 r j)).trans ?_
  rw [Cert.Lib.PlainDot.mm_apply]
  unfold Cert.Spec.g2
  refine Finset.sum_congr rfl fun l _ => ?_
  rw [mulf_apply, maximumf_apply, mulf_apply, broadcast_apply, transpose_ix2_apply,
    nrm_spread _ _ (Cert.Spec.deg a i) r l hv4, hv15, Cert.Lib.PlainDot.matmul_zero, Cert.Lib.PlainDot.mm_apply]
  simp only [hv0, hv1]
  rfl

end Cert.Pay

end
-- ==== Proof.KVal1.lean ====
/-
  The second region's output array, index by index.

  The grid has 25 points. At point t the body is handed rows 400t … 400t+399 of the adjacency (window 0), the whole
  projected array g1 (window 1), rows 400t … 400t+399 of the degree column (window 2) and the whole stacked weight
  (window 3), and stores rows 400t … 400t+399 of its output (window 4). The 25 row blocks tile the output, so the
  output at (p, j) is g2 p j.
-/
import proofs.«108970_g8160437862604_cont_9to1_m_911_6_alg».proof.Proof.KI1
import proofs.«108970_g8160437862604_cont_9to1_m_911_6_alg».proof.Proof.Pay1
import proofs.«108970_g8160437862604_cont_9to1_m_911_6_alg».proof.Proof.Spec
import Idealize.ShloMosaic.Lib.Pipeline.Value

noncomputable section

open scoped BigOperators

namespace Cert.KVal

open Cert.KernelIdeal Cert.KernelIdeal.Gen Cert.KernelIdeal.Fr Idealize.ShloMosaic Idealize.ShloMosaic.ValueIdx
open Idealize.ShloMosaic.TcCoe Idealize.SL Idealize.SL.RA
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ### The block indices over the grid: row-block windows sit at block (t, 0), whole-array windows at (0, 0) -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

/-! ### The input blocks, read at an index -/

/-- Window 0's block at point t, read at (r, l), is the adjacency at row 400t + r. -/
theorem iblk1_0_apply (c : Dev nD) (t : Fin cfg1.N) (r : Fin 400) (l : Fin 10000) (p : Fin 10000)
    (hp : p.val = 400 * t.val + r.val) :
    (iblk1 V c 0 t : Vec Ideal S400x10000 .f32) (ix2 r l) = (V c main_arg0 : S10000x10000.Idx → EReal) (ix2 p l) := by
  obtain ⟨e0, e1⟩ := idx1_0 t
  unfold iblk1
  rw [View.read_apply]
  show V c main_arg0 _ = V c main_arg0 _
  congr 1
  funext a
  apply Fin.ext
  match a with
  | ⟨0, _⟩ => show win1_0.index t (0 : Fin 2) * 400 + 1 * r.val = p.val; rw [e0, hp]; omega
  | ⟨1, _⟩ => show win1_0.index t (1 : Fin 2) * 10000 + 1 * l.val = l.val; rw [e1]; omega

/-- Window 1's block at any point is the whole of the projected array. -/
theorem iblk1_1_apply (c : Dev nD) (t : Fin cfg1.N) (j : Fin 10000) (l : Fin 64) :
    (iblk1 V c 1 t : Vec Ideal S10000x64 .f32) (ix2 j l) = (V c main_v1_1 : S10000x64.Idx → EReal) (ix2 j l) := by
  obtain ⟨e0, e1⟩ := idx1_1 t
  unfold iblk1
  rw [View.read_apply]
  show V c main_v1_1 _ = V c main_v1_1 _
  congr 1
  funext a
  apply Fin.ext
  match a with
  | ⟨0, _⟩ => show win1_1.index t (0 : Fin 2) * 10000 + 1 * j.val = j.val; rw [e0]; omega
  | ⟨1, _⟩ => show win1_1.index t (1 : Fin 2) * 64 + 1 * l.val = l.val; rw [e1]; omega

/-- Window 2's block at point t, read at (r, l), is the degree column at row 400t + r. -/
theorem iblk1_2_apply (c : Dev nD) (t : Fin cfg1.N) (r : Fin 400) (l : Fin 1) (p : Fin 10000)
    (hp : p.val = 400 * t.val + r.val) :
    (iblk1 V c 2 t : Vec Ideal S400x1 .f32) (ix2 r l) = (V c main_v1_0 : S10000x1.Idx → EReal) (ix2 p l) := by
  obtain ⟨e0, e1⟩ := idx1_2 t
  unfold iblk1
  rw [View.read_apply]
  show V c main_v1_0 _ = V c main_v1_0 _
  congr 1
  funext a
  apply Fin.ext
  match a with
  | ⟨0, _⟩ => show win1_2.index t (0 : Fin 2) * 400 + 1 * r.val = p.val; rw [e0, hp]; omega
  | ⟨1, _⟩ => show win1_2.index t (1 : Fin 2) * 1 + 1 * l.val = l.val; rw [e1]; omega

/-- Window 3's block at any point is the whole of the stacked weight. -/
theorem iblk1_3_apply (c : Dev nD) (t : Fin cfg1.N) (j : Fin 32) (l : Fin 64) :
    (iblk1 V c 3 t : Vec Ideal S32x64 .f32) (ix2 j l) = (V c main_v0 : S32x64.Idx → EReal) (ix2 j l) := by
  obtain ⟨e0, e1⟩ := idx1_3 t
  unfold iblk1
  rw [View.read_apply]
  show V c main_v0 _ = V c main_v0 _
  congr 1
  funext a
  apply Fin.ext
  match a with
  | ⟨0, _⟩ => show win1_3.index t (0 : Fin 2) * 32 + 1 * j.val = j.val; rw [e0]; omega
  | ⟨1, _⟩ => show win1_3.index t (1 : Fin 2) * 64 + 1 * l.val = l.val; rw [e1]; omega

/-! ### The output buffer after the body, over any loaded blocks whose rows are rows of the arrays -/

theorem out1_4_point (x0 : Vec Ideal S400x10000 .f32) (x1 : Vec Ideal S10000x64 .f32) (x2 : Vec Ideal S400x1 .f32)
    (x3 : Vec Ideal S32x64 .f32) (a : Fin 10000 → Fin 10000 → EReal) (h : Fin 10000 → Fin 128 → EReal) (w0 : Fin 64 → Fin 128 → EReal) (wmu wls : Fin 16 → Fin 64 → EReal) (i : Fin 10000) (r : Fin 400)
    (h0 : ∀ k : Fin 10000, x0 (ix2 r k) = a i k)
    (h1 : ∀ (k : Fin 10000) (j : Fin 64), x1 (ix2 k j) = Cert.Spec.g1 a h w0 k j)
    (h2 : x2 (ix2 r (0 : Fin 1)) = Cert.Spec.deg a i)
    (h3 : ∀ (j : Fin 32) (l : Fin 64), x3 (ix2 j l) = Cert.Spec.wc wmu wls j l) (j : Fin 32) :
    out1_4 (F := Ideal) x0 x1 x2 x3 (ix2 r j) = Cert.Spec.g2 a h w0 wmu wls i j := by
  unfold out1_4
  rw [View.canon_unit_zero hz1]
  simp only [View.ld_unit_zero (S := S400x10000) hz1, View.ld_unit_zero (S := S10000x64) hz1,
    View.ld_unit_zero (S := S400x1) hz1, View.ld_unit_zero (S := S32x64) hz1]
  exact Cert.Pay.pay1_1 x0 x1 x2 x3 a h w0 wmu wls i r h0 h1 h2 h3 j

/-- The output array as a function of its index. -/
def G1 (a : Fin 10000 → Fin 10000 → EReal) (h : Fin 10000 → Fin 128 → EReal) (w0 : Fin 64 → Fin 128 → EReal) (wmu wls : Fin 16 → Fin 64 → EReal) : S10000x32.Idx → EReal :=
  fun i => Cert.Spec.g2 a h w0 wmu wls (i 0) (i 1)

/-- An index of the output array is in point t's block iff each coordinate is in the block's range on its axis. -/
theorem mem_blk1_4 (t : Fin cfg1.N) (i : S10000x32.Idx) :
    i ∈ ((cfg1.win 4).blk t).view.set ↔ ∀ a : Fin 2, win1_4.index t a * S400x32.size a ≤ (i a).val ∧ (i a).val < win1_4.index t a * S400x32.size a + S400x32.size a := by
  show i ∈ ((View.whole main_v2).slice (win1_4.rect t)).set ↔ _
  rw [View.set_slice_whole, Rect.mem_set_unit]
  exact Iff.rfl

/-- What point t writes back is block t of G1. -/
theorem flushed1_4_eq (c : Dev nD) (a : Fin 10000 → Fin 10000 → EReal) (h : Fin 10000 → Fin 128 → EReal) (w0 : Fin 64 → Fin 128 → EReal) (wmu wls : Fin 16 → Fin 64 → EReal) (hA : ∀ (p q : Fin 10000), (V c main_arg0 : S10000x10000.Idx → EReal) (ix2 p q) = a p q)
    (hG : ∀ (k : Fin 10000) (j : Fin 64), (V c main_v1_1 : S10000x64.Idx → EReal) (ix2 k j) = Cert.Spec.g1 a h w0 k j)
    (hD : ∀ (p : Fin 10000) (q : Fin 1), (V c main_v1_0 : S10000x1.Idx → EReal) (ix2 p q) = Cert.Spec.deg a p)
    (hW : ∀ (j : Fin 32) (l : Fin 64), (V c main_v0 : S32x64.Idx → EReal) (ix2 j l) = Cert.Spec.wc wmu wls j l) (t : Fin cfg1.N) :
    (dat1 (F := Ideal) V c).flushed 4 t = ((cfg1.win 4).blk t).view.read (Elt Ideal) (G1 a h w0 wmu wls) := by
  show (cfg1.win 4).cut (grid1.coords t) ((dat1 V c).after 4 t) = _
  rw [after1_4]
  obtain ⟨e0, e1⟩ := idx1_4 t
  have hN : t.val < 25 := lt_of_lt_of_eq t.isLt N_1
  funext y
  obtain ⟨r, j, rfl⟩ : ∃ (r : Fin 400) (j : Fin 32), y = ix2 r j := ⟨y 0, y 1, eq_ix2 y⟩
  have hp : 400 * t.val + r.val < 10000 := by have := r.isLt; omega
  show out1_4 (iblk1 V c 0 t) (iblk1 V c 1 t) (iblk1 V c 2 t) (iblk1 V c 3 t) (ix2 r j) = G1 a h w0 wmu wls (((cfg1.win 4).blk t).view.emb (ix2 r j))
  refine (out1_4_point (iblk1 V c 0 t) (iblk1 V c 1 t) (iblk1 V c 2 t) (iblk1 V c 3 t) a h w0 wmu wls ⟨400 * t.val + r.val, hp⟩ r
    (fun k => (iblk1_0_apply V c t r k ⟨400 * t.val + r.val, hp⟩ rfl).trans (hA _ k))
    (fun k j => (iblk1_1_apply V c t k j).trans (hG k j))
    ((iblk1_2_apply V c t r 0 ⟨400 * t.val + r.val, hp⟩ rfl).trans (hD _ 0))
    (fun j l => (iblk1_3_apply V c t j l).trans (hW j l)) j).trans ?_
  unfold G1
  congr 1
  · exact (Fin.ext (by
      show 400 * t.val + r.val = win1_4.index t (0 : Fin 2) * 400 + 1 * r.val
      rw [e0]; omega))
  · exact (Fin.ext (by
      show j.val = win1_4.index t (1 : Fin 2) * 32 + 1 * j.val
      rw [e1]; omega))

/-- The second region's output array ends holding g2. -/
theorem final1 (c : Dev nD) (a : Fin 10000 → Fin 10000 → EReal) (h : Fin 10000 → Fin 128 → EReal) (w0 : Fin 64 → Fin 128 → EReal) (wmu wls : Fin 16 → Fin 64 → EReal) (hA : ∀ (p q : Fin 10000), (V c main_arg0 : S10000x10000.Idx → EReal) (ix2 p q) = a p q)
    (hG : ∀ (k : Fin 10000) (j : Fin 64), (V c main_v1_1 : S10000x64.Idx → EReal) (ix2 k j) = Cert.Spec.g1 a h w0 k j)
    (hD : ∀ (p : Fin 10000) (q : Fin 1), (V c main_v1_0 : S10000x1.Idx → EReal) (ix2 p q) = Cert.Spec.deg a p)
    (hW : ∀ (j : Fin 32) (l : Fin 64), (V c main_v0 : S32x64.Idx → EReal) (ix2 j l) = Cert.Spec.wc wmu wls j l) :
    ∀ (p : Fin 10000) (j : Fin 32), (dat1 (F := Ideal) V c).arrAt 4 cfg1.N (ix2 p j) = Cert.Spec.g2 a h w0 wmu wls p j := by
  have hfin : (dat1 (F := Ideal) V c).arrAt 4 cfg1.N = G1 a h w0 wmu wls :=
    (dat1 (F := Ideal) V c).arrAt_eq_of_cover 4 (G1 a h w0 wmu wls)
      (fun t _ => flushed1_4_eq V c a h w0 wmu wls hA hG hD hW t) (fun i => by
        have hi0 : (i 0).val < 10000 := (i 0).isLt
        have hi1 : (i 1).val < 32 := (i 1).isLt
        have ht : (i 0).val / 400 < cfg1.N := by rw [show cfg1.N = 25 from N_1]; omega
        obtain ⟨e0, e1⟩ := idx1_4 ⟨(i 0).val / 400, ht⟩
        refine ⟨⟨(i 0).val / 400, ht⟩, flush1_4 _, ?_⟩
        rw [mem_blk1_4]
        intro a
        match a with
        | ⟨0, _⟩ =>
          show win1_4.index ⟨(i 0).val / 400, ht⟩ (0 : Fin 2) * 400 ≤ (i 0).val ∧ (i 0).val < win1_4.index ⟨(i 0).val / 400, ht⟩ (0 : Fin 2) * 400 + 400
          rw [e0]; show (i 0).val / 400 * 400 ≤ (i 0).val ∧ (i 0).val < (i 0).val / 400 * 400 + 400; omega
        | ⟨1, _⟩ =>
          show win1_4.index ⟨(i 0).val / 400, ht⟩ (1 : Fin 2) * 32 ≤ (i 1).val ∧ (i 1).val < win1_4.index ⟨(i 0).val / 400, ht⟩ (1 : Fin 2) * 32 + 32
          rw [e1]; omega)
  intro p j
  rw [hfin]
  rfl

end Cert.KVal

end
-- ==== Proof.Pay2.lean ====
/-
  The third kernel's arithmetic at an index, over the extended reals.

  The body multiplies a 400×10000 block of the adjacency by the whole 10000×32 second-layer array into a zero
  accumulator and scales each row by the reciprocal square root of its degree bounded below by 1: this is y, whose
  columns 0–15 are the mean head and 16–31 the log-deviation head. It then cuts the two heads apart and forms
  mean + exp(log-deviation) · noise. At row r of the block (global row i) and column j the result is
      z i j = y i j + exp (y i (16 + j)) · eps i j,   y i c = (Σ_k a i k · g2 k c) · nrm i.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibPlainDot
import proofs.«108970_g8160437862604_cont_9to1_m_911_6_alg».proof.Proof.PayLib
import Idealize.ShloMosaic.Lib.ValueLayout
import Idealize.ShloMosaic.Lib.Pipeline.Value

noncomputable section

open scoped BigOperators

namespace Cert.Pay

open Idealize.ShloMosaic Idealize.ShloMosaic.ValueIdx Cert.KernelIdeal Cert.KernelIdeal.Gen

/-- The aggregation's dimension numbers are those of a plain 400×10000 by 10000×32 product. -/
theorem dims2_eq : dot_S400x10000_S10000x32_S400x32_1_0_0_1_n_n = DotDims.plain 400 10000 32 := rfl

/-- An exponential at an index is the exponential of the element. -/
theorem exp_apply {s : Shape} {φ : FTy} (x : FVec Ideal s φ) (i : s.Idx) : exp x i = Ideal.exp (x i) := rfl

/-- The aggregated and scaled second layer at row r of the block (global row i) and column c of the 32. -/
theorem y_read (v0 : FVec Ideal S400x10000 .f32) (v1 : FVec Ideal S10000x32 .f32) (v4 : FVec Ideal S400x1 .f32)
    (a : Fin 10000 → Fin 10000 → EReal) (h : Fin 10000 → Fin 128 → EReal) (w0 : Fin 64 → Fin 128 → EReal)
    (wmu wls : Fin 16 → Fin 64 → EReal) (i : Fin 10000) (r : Fin 400)
    (hv0 : ∀ k : Fin 10000, v0 (ix2 r k) = a i k)
    (hv1 : ∀ (k : Fin 10000) (j : Fin 32), v1 (ix2 k j) = Cert.Spec.g2 a h w0 wmu wls k j)
    (hv4 : v4 (ix2 r (0 : Fin 1)) = Cert.Spec.deg a i) (c : Fin 32) :
    mulf (matmul (F := Ideal) (DotDims.plain 400 10000 32) none v0 v1 (constant (F := Ideal) S400x32 .f32 0x00000000#32))
        (broadcastTo S400x32 (rsqrt (maximumf v4 (broadcast S400x1 (Scalar.ofBits (F := Ideal) .f32 0x3F800000#32))))
          Facts₀.broadcasts_S400x1_S400x32) (ix2 r c)
      = Cert.Spec.y a h w0 wmu wls i c := by
  rw [mulf_apply, nrm_spread _ _ (Cert.Spec.deg a i) r c hv4, Cert.Lib.PlainDot.matmul_zero, Cert.Lib.PlainDot.mm_apply]
  simp only [hv0, hv1]
  rfl

/-- The sampled code at row r of the block (global row i) and column j. -/
theorem pay2_1 (v0 : Vec Ideal S400x10000 .f32) (v1 : Vec Ideal S10000x32 .f32) (v4 : Vec Ideal S400x1 .f32)
    (v14 : Vec Ideal S400x16 .f32) (a : Fin 10000 → Fin 10000 → EReal) (h : Fin 10000 → Fin 128 → EReal)
    (w0 : Fin 64 → Fin 128 → EReal) (wmu wls : Fin 16 → Fin 64 → EReal) (eps : Fin 10000 → Fin 16 → EReal)
    (i : Fin 10000) (r : Fin 400) (hv0 : ∀ k : Fin 10000, v0 (ix2 r k) = a i k)
    (hv1 : ∀ (k : Fin 10000) (j : Fin 32), v1 (ix2 k j) = Cert.Spec.g2 a h w0 wmu wls k j)
    (hv4 : v4 (ix2 r (0 : Fin 1)) = Cert.Spec.deg a i) (hv14 : ∀ j : Fin 16, v14 (ix2 r j) = eps i j) (j : Fin 16) :
    k2_pay1 (F := Ideal) v0 v1 v4 v14 (ix2 r j) = Cert.Spec.z a h w0 wmu wls eps i j := by
  unfold k2_pay1
  rw [shapeCast_self, shapeCast_self, dims2_eq, addf_apply, mulf_apply, exp_apply,
    slice2_axis1_apply (n1 := 32) 0 _ _ r j ⟨j.val, by omega⟩ (Nat.zero_add _).symm,
    slice2_axis1_apply (n1 := 32) 16 _ _ r j ⟨16 + j.val, by omega⟩ rfl,
    y_read v0 v1 v4 a h w0 wmu wls i r hv0 hv1 hv4, y_read v0 v1 v4 a h w0 wmu wls i r hv0 hv1 hv4, hv14]
  rfl

end Cert.Pay

end
-- ==== Proof.KVal2.lean ====
/-
  The third region's output array, index by index.

  The grid has 25 points. At point t the body is handed rows 400t … 400t+399 of the adjacency (window 0), the whole
  array g2 (window 1), rows 400t … 400t+399 of the degree column (window 2) and of the noise (window 3), and stores
  rows 400t … 400t+399 of the code array (window 4). The 25 row blocks tile the output, so the code array at (p, j)
  is z p j.
-/
import proofs.«108970_g8160437862604_cont_9to1_m_911_6_alg».proof.Proof.KI2
import proofs.«108970_g8160437862604_cont_9to1_m_911_6_alg».proof.Proof.Pay2
import proofs.«108970_g8160437862604_cont_9to1_m_911_6_alg».proof.Proof.Spec
import Idealize.ShloMosaic.Lib.Pipeline.Value

noncomputable section

open scoped BigOperators

namespace Cert.KVal

open Cert.KernelIdeal Cert.KernelIdeal.Gen Cert.KernelIdeal.Fr Idealize.ShloMosaic Idealize.ShloMosaic.ValueIdx
open Idealize.ShloMosaic.TcCoe Idealize.SL Idealize.SL.RA
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ### The block indices over the grid: row-block windows sit at block (t, 0), the whole-array window at (0, 0) -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)

/-! ### The input blocks, read at an index -/

/-- Window 0's block at point t, read at (r, l), is the adjacency at row 400t + r. -/
theorem iblk2_0_apply (c : Dev nD) (t : Fin cfg2.N) (r : Fin 400) (l : Fin 10000) (p : Fin 10000)
    (hp : p.val = 400 * t.val + r.val) :
    (iblk2 V c 0 t : Vec Ideal S400x10000 .f32) (ix2 r l) = (V c main_arg0 : S10000x10000.Idx → EReal) (ix2 p l) := by
  obtain ⟨e0, e1⟩ := idx2_0 t
  unfold iblk2
  rw [View.read_apply]
  show V c main_arg0 _ = V c main_arg0 _
  congr 1
  funext a
  apply Fin.ext
  match a with
  | ⟨0, _⟩ => show win2_0.index t (0 : Fin 2) * 400 + 1 * r.val = p.val; rw [e0, hp]; omega
  | ⟨1, _⟩ => show win2_0.index t (1 : Fin 2) * 10000 + 1 * l.val = l.val; rw [e1]; omega

/-- Window 1's block at any point is the whole of the array g2. -/
theorem iblk2_1_apply (c : Dev nD) (t : Fin cfg2.N) (j : Fin 10000) (l : Fin 32) :
    (iblk2 V c 1 t : Vec Ideal S10000x32 .f32) (ix2 j l) = (V c main_v2 : S10000x32.Idx → EReal) (ix2 j l) := by
  obtain ⟨e0, e1⟩ := idx2_1 t
  unfold iblk2
  rw [View.read_apply]
  show V c main_v2 _ = V c main_v2 _
  congr 1
  funext a
  apply Fin.ext
  match a with
  | ⟨0, _⟩ => show win2_1.index t (0 : Fin 2) * 10000 + 1 * j.val = j.val; rw [e0]; omega
  | ⟨1, _⟩ => show win2_1.index t (1 : Fin 2) * 32 + 1 * l.val = l.val; rw [e1]; omega

/-- Window 2's block at point t, read at (r, l), is the degree column at row 400t + r. -/
theorem iblk2_2_apply (c : Dev nD) (t : Fin cfg2.N) (r : Fin 400) (l : Fin 1) (p : Fin 10000)
    (hp : p.val = 400 * t.val + r.val) :
    (iblk2 V c 2 t : Vec Ideal S400x1 .f32) (ix2 r l) = (V c main_v1_0 : S10000x1.Idx → EReal) (ix2 p l) := by
  obtain ⟨e0, e1⟩ := idx2_2 t
  unfold iblk2
  rw [View.read_apply]
  show V c main_v1_0 _ = V c main_v1_0 _
  congr 1
  funext a
  apply Fin.ext
  match a with
  | ⟨0, _⟩ => show win2_2.index t (0 : Fin 2) * 400 + 1 * r.val = p.val; rw [e0, hp]; omega
  | ⟨1, _⟩ => show win2_2.index t (1 : Fin 2) * 1 + 1 * l.val = l.val; rw [e1]; omega

/-- Window 3's block at point t, read at (r, l), is the noise at row 400t + r. -/
theorem iblk2_3_apply (c : Dev nD) (t : Fin cfg2.N) (r : Fin 400) (l : Fin 16) (p : Fin 10000)
    (hp : p.val = 400 * t.val + r.val) :
    (iblk2 V c 3 t : Vec Ideal S400x16 .f32) (ix2 r l) = (V c main_arg5 : S10000x16.Idx → EReal) (ix2 p l) := by
  obtain ⟨e0, e1⟩ := idx2_3 t
  unfold iblk2
  rw [View.read_apply]
  show V c main_arg5 _ = V c main_arg5 _
  congr 1
  funext a
  apply Fin.ext
  match a with
  | ⟨0, _⟩ => show win2_3.index t (0 : Fin 2) * 400 + 1 * r.val = p.val; rw [e0, hp]; omega
  | ⟨1, _⟩ => show win2_3.index t (1 : Fin 2) * 16 + 1 * l.val = l.val; rw [e1]; omega

/-! ### The output buffer after the body, over any loaded blocks whose rows are rows of the arrays -/

theorem out2_4_point (x0 : Vec Ideal S400x10000 .f32) (x1 : Vec Ideal S10000x32 .f32) (x2 : Vec Ideal S400x1 .f32)
    (x3 : Vec Ideal S400x16 .f32) (a : Fin 10000 → Fin 10000 → EReal) (h : Fin 10000 → Fin 128 → EReal) (w0 : Fin 64 → Fin 128 → EReal) (wmu wls : Fin 16 → Fin 64 → EReal) (eps : Fin 10000 → Fin 16 → EReal) (i : Fin 10000) (r : Fin 400)
    (h0 : ∀ k : Fin 10000, x0 (ix2 r k) = a i k)
    (h1 : ∀ (k : Fin 10000) (j : Fin 32), x1 (ix2 k j) = Cert.Spec.g2 a h w0 wmu wls k j)
    (h2 : x2 (ix2 r (0 : Fin 1)) = Cert.Spec.deg a i)
    (h3 : ∀ j : Fin 16, x3 (ix2 r j) = eps i j) (j : Fin 16) :
    out2_4 (F := Ideal) x0 x1 x2 x3 (ix2 r j) = Cert.Spec.z a h w0 wmu wls eps i j := by
  unfold out2_4
  rw [View.canon_unit_zero hz2]
  simp only [View.ld_unit_zero (S := S400x10000) hz2, View.ld_unit_zero (S := S10000x32) hz2,
    View.ld_unit_zero (S := S400x1) hz2, View.ld_unit_zero (S := S400x16) hz2]
  exact Cert.Pay.pay2_1 x0 x1 x2 x3 a h w0 wmu wls eps i r h0 h1 h2 h3 j

/-- The output array as a function of its index. -/
def G2 (a : Fin 10000 → Fin 10000 → EReal) (h : Fin 10000 → Fin 128 → EReal) (w0 : Fin 64 → Fin 128 → EReal) (wmu wls : Fin 16 → Fin 64 → EReal) (eps : Fin 10000 → Fin 16 → EReal) : S10000x16.Idx → EReal :=
  fun i => Cert.Spec.z a h w0 wmu wls eps (i 0) (i 1)

/-- An index of the output array is in point t's block iff each coordinate is in the block's range on its axis. -/
theorem mem_blk2_4 (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v3).slice (win2_4.rect t)).set ↔ _
  rw [View.set_slice_whole, Rect.mem_set_unit]
  exact Iff.rfl

/-- What point t writes back is block t of G2. -/
theorem flushed2_4_eq (c : Dev nD) (a : Fin 10000 → Fin 10000 → EReal) (h : Fin 10000 → Fin 128 → EReal) (w0 : Fin 64 → Fin 128 → EReal) (wmu wls : Fin 16 → Fin 64 → EReal) (eps : Fin 10000 → Fin 16 → EReal) (hA : ∀ (p q : Fin 10000), (V c main_arg0 : S10000x10000.Idx → EReal) (ix2 p q) = a p q)
    (hG : ∀ (k : Fin 10000) (j : Fin 32), (V c main_v2 : S10000x32.Idx → EReal) (ix2 k j) = Cert.Spec.g2 a h w0 wmu wls k j)
    (hD : ∀ (p : Fin 10000) (q : Fin 1), (V c main_v1_0 : S10000x1.Idx → EReal) (ix2 p q) = Cert.Spec.deg a p)
    (hE : ∀ (p : Fin 10000) (j : Fin 16), (V c main_arg5 : S10000x16.Idx → EReal) (ix2 p j) = eps p j) (t : Fin cfg2.N) :
    (dat2 (F := Ideal) V c).flushed 4 t = ((cfg2.win 4).blk t).view.read (Elt Ideal) (G2 a h w0 wmu wls eps) := by
  show (cfg2.win 4).cut (grid2.coords t) ((dat2 V c).after 4 t) = _
  rw [after2_4]
  obtain ⟨e0, e1⟩ := idx2_4 t
  have hN : t.val < 25 := lt_of_lt_of_eq t.isLt N_2
  funext y
  obtain ⟨r, j, rfl⟩ : ∃ (r : Fin 400) (j : Fin 16), y = ix2 r j := ⟨y 0, y 1, eq_ix2 y⟩
  have hp : 400 * t.val + r.val < 10000 := by have := r.isLt; omega
  show out2_4 (iblk2 V c 0 t) (iblk2 V c 1 t) (iblk2 V c 2 t) (iblk2 V c 3 t) (ix2 r j) = G2 a h w0 wmu wls eps (((cfg2.win 4).blk t).view.emb (ix2 r j))
  refine (out2_4_point (iblk2 V c 0 t) (iblk2 V c 1 t) (iblk2 V c 2 t) (iblk2 V c 3 t) a h w0 wmu wls eps ⟨400 * t.val + r.val, hp⟩ r
    (fun k => (iblk2_0_apply V c t r k ⟨400 * t.val + r.val, hp⟩ rfl).trans (hA _ k))
    (fun k j => (iblk2_1_apply V c t k j).trans (hG k j))
    ((iblk2_2_apply V c t r 0 ⟨400 * t.val + r.val, hp⟩ rfl).trans (hD _ 0))
    (fun j => (iblk2_3_apply V c t r j ⟨400 * t.val + r.val, hp⟩ rfl).trans (hE _ j)) j).trans ?_
  unfold G2
  congr 1
  · exact (Fin.ext (by
      show 400 * t.val + r.val = win2_4.index t (0 : Fin 2) * 400 + 1 * r.val
      rw [e0]; omega))
  · exact (Fin.ext (by
      show j.val = win2_4.index t (1 : Fin 2) * 16 + 1 * j.val
      rw [e1]; omega))

/-- The third region's output array ends holding the codes z. -/
theorem final2 (c : Dev nD) (a : Fin 10000 → Fin 10000 → EReal) (h : Fin 10000 → Fin 128 → EReal) (w0 : Fin 64 → Fin 128 → EReal) (wmu wls : Fin 16 → Fin 64 → EReal) (eps : Fin 10000 → Fin 16 → EReal) (hA : ∀ (p q : Fin 10000), (V c main_arg0 : S10000x10000.Idx → EReal) (ix2 p q) = a p q)
    (hG : ∀ (k : Fin 10000) (j : Fin 32), (V c main_v2 : S10000x32.Idx → EReal) (ix2 k j) = Cert.Spec.g2 a h w0 wmu wls k j)
    (hD : ∀ (p : Fin 10000) (q : Fin 1), (V c main_v1_0 : S10000x1.Idx → EReal) (ix2 p q) = Cert.Spec.deg a p)
    (hE : ∀ (p : Fin 10000) (j : Fin 16), (V c main_arg5 : S10000x16.Idx → EReal) (ix2 p j) = eps p j) :
    ∀ (p : Fin 10000) (j : Fin 16), (dat2 (F := Ideal) V c).arrAt 4 cfg2.N (ix2 p j) = Cert.Spec.z a h w0 wmu wls eps p j := by
  have hfin : (dat2 (F := Ideal) V c).arrAt 4 cfg2.N = G2 a h w0 wmu wls eps :=
    (dat2 (F := Ideal) V c).arrAt_eq_of_cover 4 (G2 a h w0 wmu wls eps)
      (fun t _ => flushed2_4_eq V c a h w0 wmu wls eps hA hG hD hE t) (fun i => by
        have hi0 : (i 0).val < 10000 := (i 0).isLt
        have hi1 : (i 1).val < 16 := (i 1).isLt
        have ht : (i 0).val / 400 < cfg2.N := by rw [show cfg2.N = 25 from N_2]; omega
        obtain ⟨e0, e1⟩ := idx2_4 ⟨(i 0).val / 400, ht⟩
        refine ⟨⟨(i 0).val / 400, ht⟩, flush2_4 _, ?_⟩
        rw [mem_blk2_4]
        intro a
        match a with
        | ⟨0, _⟩ =>
          show win2_4.index ⟨(i 0).val / 400, ht⟩ (0 : Fin 2) * 400 ≤ (i 0).val ∧ (i 0).val < win2_4.index ⟨(i 0).val / 400, ht⟩ (0 : Fin 2) * 400 + 400
          rw [e0]; show (i 0).val / 400 * 400 ≤ (i 0).val ∧ (i 0).val < (i 0).val / 400 * 400 + 400; omega
        | ⟨1, _⟩ =>
          show win2_4.index ⟨(i 0).val / 400, ht⟩ (1 : Fin 2) * 16 ≤ (i 1).val ∧ (i 1).val < win2_4.index ⟨(i 0).val / 400, ht⟩ (1 : Fin 2) * 16 + 16
          rw [e1]; omega)
  intro p j
  rw [hfin]
  rfl

end Cert.KVal

end
-- ==== Proof.LibDotNT.lean ====
/-
  A matrix product with the second operand transposed, read index by index over the extended reals.

  For the dimension numbers that contract the second axis of an M×K array with the second axis of an N×K array
  (no batch axis), the accelerator's matrix product into a zero accumulator is, at the exact values, the function
      (i, j) ↦ Σ_{k < K} l(i, k) · r(j, k).
-/
import Idealize.ShloMosaic.PureOps.Ideal.Laws
import Idealize.ShloMosaic.Lib.ValueIdx

noncomputable section

namespace Cert.LibDotNT

open Idealize.ShloMosaic Idealize.ShloMosaic.ValueIdx

/-- The dimension numbers of l · rᵀ: contract axis 1 of both operands; rows from l, columns from r's rows. -/
def nt (M N K : Nat)
    (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

/-- The product l · rᵀ of an M×K and an N×K array of extended reals, index by index. -/
def mmT {M N K : Nat} (l : (⟨2, ![M, K]⟩ : Shape).Idx → EReal) (r : (⟨2, ![N, K]⟩ : Shape).Idx → EReal) :
    (⟨2, ![M, N]⟩ : Shape).Idx → EReal :=
  fun j => ∑ k : Fin K, l (ix2 (j 0) k) * r (ix2 (j 1) k)

theorem mmT_apply {M N K : Nat} (l : (⟨2, ![M, K]⟩ : Shape).Idx → EReal) (r : (⟨2, ![N, K]⟩ : Shape).Idx → EReal)
    (i : Fin M) (j : Fin N) : mmT l r (ix2 i j) = ∑ k : Fin K, l (ix2 i k) * r (ix2 j k) := rfl

/-- The sum over the one-axis contraction index is the sum over k < K of l at (i, k) times r at (j, k). -/
theorem contr_sum (M N K : Nat)
    (wf : DotDims.WF (⟨2, ![M, K]⟩ : Shape) (⟨2, ![N, K]⟩ : Shape) (⟨2, ![M, N]⟩ : Shape) [1] [1] [0] [0] [] [])
    (l : (⟨2, ![M, K]⟩ : Shape).Idx → EReal) (r : (⟨2, ![N, K]⟩ : Shape).Idx → EReal)
    (j : (⟨2, ![M, N]⟩ : Shape).Idx) :
    ∑ q : (nt M N K wf).contr.Idx, l ((nt M N K wf).lhsIdx j q) * r ((nt M N K wf).rhsIdx j q) = mmT l r j := by
  unfold mmT
  rw [← Equiv.sum_comp (contrEquiv1 (nt M N K wf) K rfl rfl).symm]
  refine Finset.sum_congr rfl fun k _ => ?_
  have hk := contrEquiv1_symm_val (nt M N K wf) K rfl rfl k
  have el : (nt M N K wf).lhsIdx j ((contrEquiv1 (nt M N K wf) K rfl rfl).symm k) = ix2 (j 0) k :=
    funext fun a => Fin.ext (by
      match a with
      | ⟨0, _⟩ => rfl
      | ⟨1, _⟩ => exact ((nt M N K wf).lhsIdx_val_of_single (cl := 1) rfl j _).trans hk)
  have er : (nt M N K wf).rhsIdx j ((contrEquiv1 (nt M N K wf) K rfl rfl).symm k) = ix2 (j 1) k :=
    funext fun a => Fin.ext (by
      match a with
      | ⟨0, _⟩ => rfl
      | ⟨1, _⟩ => exact ((nt M N K wf).rhsIdx_val_of_single (cr := 1) rfl j _).trans hk)
  rw [el, er]
  rfl

/-- The accelerator's matrix product into the zero accumulator, at the exact values, is l · rᵀ. -/
theorem matmul_zero {M N K : Nat} {φ₁ φ₂ : FTy}
    (wf : DotDims.WF (⟨2, ![M, K]⟩ : Shape) (⟨2, ![N, K]⟩ : Shape) (⟨2, ![M, N]⟩ : Shape) [1] [1] [0] [0] [] [])
    (prec : Option ContractPrecision) (l : FVec Ideal ⟨2, ![M, K]⟩ φ₁) (r : FVec Ideal ⟨2, ![N, K]⟩ φ₂) :
    matmul (F := Ideal) (nt M N K wf) prec l r (constant (F := Ideal) ⟨2, ![M, N]⟩ .f32 0x00000000#32) = mmT l r :=
  funext fun j => (Ideal.matmul_constant_zero_apply (nt M N K wf) prec l r j).trans (contr_sum M N K wf l r j)

end Cert.LibDotNT

end
-- ==== Proof.Pay3.lean ====
/-
  The decoder kernel's arithmetic at an index, over the extended reals.

  The body multiplies a 400×16 block of codes by the whole 10000×16 array of codes, contracting the second axis of
  both, into a zero accumulator. At row r of the block (global row i) and column j the result is
      Σ_{l < 16} z i l · z j l,
  the inner product of the codes of nodes i and j.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibDotNT
import Idealize.ShloMosaic.Lib.Pipeline.Value

noncomputable section

open scoped BigOperators

namespace Cert.Pay

open Idealize.ShloMosaic Idealize.ShloMosaic.ValueIdx Cert.KernelIdeal Cert.KernelIdeal.Gen

/-- The decoder's dimension numbers are those of a product with the second operand transposed. -/
theorem dims3_eq : dot_S400x16_S10000x16_S400x10000_1_1_0_0_n_n
    = Cert.LibDotNT.nt 400 10000 16 Facts₀.dot_S400x16_S10000x16_S400x10000_1_1_0_0_n_n_wf := rfl

/-- The decoder body at row r of its block (global row i) and column j: the inner product of the codes of i and j. -/
theorem pay3_1 (v0 : Vec Ideal S400x16 .f32) (v2 : Vec Ideal S10000x16 .f32)
    (a : Fin 10000 → Fin 10000 → EReal) (h : Fin 10000 → Fin 128 → EReal) (w0 : Fin 64 → Fin 128 → EReal)
    (wmu wls : Fin 16 → Fin 64 → EReal) (eps : Fin 10000 → Fin 16 → EReal) (i : Fin 10000) (r : Fin 400)
    (hv0 : ∀ l : Fin 16, v0 (ix2 r l) = Cert.Spec.z a h w0 wmu wls eps i l)
    (hv2 : ∀ (j : Fin 10000) (l : Fin 16), v2 (ix2 j l) = Cert.Spec.z a h w0 wmu wls eps j l) (j : Fin 10000) :
    k3_pay1 (F := Ideal) v0 v2 (ix2 r j) = Cert.Spec.logits a h w0 wmu wls eps i j := by
  unfold k3_pay1
  rw [shapeCast_self, shapeCast_self, dims3_eq]
  refine (congrFun (Cert.LibDotNT.matmul_zero _ none v0 v2) (ix2 r j)).trans ?_
  rw [Cert.LibDotNT.mmT_apply]
  unfold Cert.Spec.logits
  exact Finset.sum_congr rfl fun l _ => by rw [hv0 l, hv2 j l]

end Cert.Pay

end
-- ==== Proof.KVal3.lean ====
/-
  The decoder region's output array, index by index.

  The grid has 25 points. At point t the body is handed rows 400t … 400t+399 of the code array z (window 0) and
  the whole of z (window 1), and stores into its output block — rows 400t … 400t+399 of the 10000×10000 result —
  the inner products of those rows with every row of z. The 25 row blocks tile the result, so the result at (p, j)
  is Σ_l z p l · z j l.
-/
import proofs.«108970_g8160437862604_cont_9to1_m_911_6_alg».proof.Proof.KI3
import proofs.«108970_g8160437862604_cont_9to1_m_911_6_alg».proof.Proof.Pay3
import proofs.«108970_g8160437862604_cont_9to1_m_911_6_alg».proof.Proof.Spec
import Idealize.ShloMosaic.Lib.Pipeline.Value

noncomputable section

open scoped BigOperators

namespace Cert.KVal

open Cert.KernelIdeal Cert.KernelIdeal.Gen Cert.KernelIdeal.Fr Idealize.ShloMosaic Idealize.ShloMosaic.ValueIdx
open Idealize.ShloMosaic.TcCoe Idealize.SL Idealize.SL.RA
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The block indices over the grid: the row-block windows sit at block (t, 0), the whole-array window at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t, read at (r, l), is the code array at row 400t + r. -/
theorem iblk3_0_apply (c : Dev nD) (t : Fin cfg3.N) (r : Fin 400) (l : Fin 16) (p : Fin 10000)
    (hp : p.val = 400 * t.val + r.val) :
    (iblk3 V c 0 t : Vec Ideal S400x16 .f32) (ix2 r l) = (V c main_v3 : S10000x16.Idx → EReal) (ix2 p l) := by
  obtain ⟨e0, e1, -⟩ := idx_facts3 t
  unfold iblk3
  rw [View.read_apply]
  show V c main_v3 _ = V c main_v3 _
  congr 1
  funext a
  apply Fin.ext
  match a with
  | ⟨0, _⟩ => show win3_0.index t (0 : Fin 2) * 400 + 1 * r.val = p.val; rw [e0, hp]; omega
  | ⟨1, _⟩ => show win3_0.index t (1 : Fin 2) * 16 + 1 * l.val = l.val; rw [e1]; omega

/-- Window 1's block at any point is the whole code array. -/
theorem iblk3_1_apply (c : Dev nD) (t : Fin cfg3.N) (j : Fin 10000) (l : Fin 16) :
    (iblk3 V c 1 t : Vec Ideal S10000x16 .f32) (ix2 j l) = (V c main_v3 : S10000x16.Idx → EReal) (ix2 j l) := by
  obtain ⟨-, -, e2, e3, -⟩ := idx_facts3 t
  unfold iblk3
  rw [View.read_apply]
  show V c main_v3 _ = V c main_v3 _
  congr 1
  funext a
  apply Fin.ext
  match a with
  | ⟨0, _⟩ => show win3_1.index t (0 : Fin 2) * 10000 + 1 * j.val = j.val; rw [e2]; omega
  | ⟨1, _⟩ => show win3_1.index t (1 : Fin 2) * 16 + 1 * l.val = l.val; rw [e3]; omega

/-- The output buffer after the body, over any two loaded blocks whose rows are rows of z. -/
theorem out3_point (x0 : Vec Ideal S400x16 .f32) (x1 : Vec Ideal S10000x16 .f32) (a : Fin 10000 → Fin 10000 → EReal) (h : Fin 10000 → Fin 128 → EReal) (w0 : Fin 64 → Fin 128 → EReal)
    (wmu wls : Fin 16 → Fin 64 → EReal) (eps : Fin 10000 → Fin 16 → EReal)
    (i : Fin 10000) (r : Fin 400)
    (h0 : ∀ l : Fin 16, x0 (ix2 r l) = Cert.Spec.z a h w0 wmu wls eps i l)
    (h1 : ∀ (j : Fin 10000) (l : Fin 16), x1 (ix2 j l) = Cert.Spec.z a h w0 wmu wls eps j l) (j : Fin 10000) :
    out3_2 (F := Ideal) x0 x1 (ix2 r j) = Cert.Spec.logits a h w0 wmu wls eps i j := by
  unfold out3_2
  rw [View.canon_unit_zero hz3]
  simp only [View.ld_unit_zero (S := S400x16) hz3, View.ld_unit_zero (S := S10000x16) hz3]
  exact Cert.Pay.pay3_1 x0 x1 a h w0 wmu wls eps i r h0 h1 j

/-- The result array as one function of its index. -/
def G3 (a : Fin 10000 → Fin 10000 → EReal) (h : Fin 10000 → Fin 128 → EReal) (w0 : Fin 64 → Fin 128 → EReal)
    (wmu wls : Fin 16 → Fin 64 → EReal) (eps : Fin 10000 → Fin 16 → EReal) : S10000x10000.Idx → EReal :=
  fun i => Cert.Spec.logits a h w0 wmu wls eps (i 0) (i 1)

/-- An index of the result is in point t's block iff each coordinate is in the block's range on its axis. -/
theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v4).slice (win3_2.rect t)).set ↔ _
  rw [View.set_slice_whole, Rect.mem_set_unit]
  exact Iff.rfl

/-- What point t writes back is block t of G3. -/
theorem flushed3_eq (q : Fin cfg3.W → PosShare TreeShare) (c : Dev nD) (a : Fin 10000 → Fin 10000 → EReal) (h : Fin 10000 → Fin 128 → EReal) (w0 : Fin 64 → Fin 128 → EReal)
    (wmu wls : Fin 16 → Fin 64 → EReal) (eps : Fin 10000 → Fin 16 → EReal)
    (hZ : ∀ (p : Fin 10000) (l : Fin 16), (V c main_v3 : S10000x16.Idx → EReal) (ix2 p l) = Cert.Spec.z a h w0 wmu wls eps p l)
    (t : Fin cfg3.N) :
    (dat3 (F := Ideal) V q c).flushed 2 t = ((cfg3.win 2).blk t).view.read (Elt Ideal) (G3 a h w0 wmu wls eps) := by
  show (cfg3.win 2).cut (grid3.coords t) ((dat3 V q c).after 2 t) = _
  rw [after3_2]
  obtain ⟨-, -, -, -, e4, e5⟩ := idx_facts3 t
  have hN : t.val < 25 := lt_of_lt_of_eq t.isLt N_3
  funext y
  obtain ⟨r, j, rfl⟩ : ∃ (r : Fin 400) (j : Fin 10000), y = ix2 r j := ⟨y 0, y 1, eq_ix2 y⟩
  have hp : 400 * t.val + r.val < 10000 := by have := r.isLt; omega
  show out3_2 (iblk3 V c 0 t) (iblk3 V c 1 t) (ix2 r j) = G3 a h w0 wmu wls eps (((cfg3.win 2).blk t).view.emb (ix2 r j))
  refine (out3_point (iblk3 V c 0 t) (iblk3 V c 1 t) a h w0 wmu wls eps ⟨400 * t.val + r.val, hp⟩ r
    (fun l => (iblk3_0_apply V c t r l ⟨400 * t.val + r.val, hp⟩ rfl).trans (hZ _ l))
    (fun j l => (iblk3_1_apply V c t j l).trans (hZ j l)) j).trans ?_
  unfold G3
  congr 1
  · apply Fin.ext
    show 400 * t.val + r.val = win3_2.index t (0 : Fin 2) * 400 + 1 * r.val
    rw [e4]; omega
  · apply Fin.ext
    show j.val = win3_2.index t (1 : Fin 2) * 10000 + 1 * j.val
    rw [e5]; omega

/-- The decoder region's output array ends holding the inner products of the codes. -/
theorem final3 (q : Fin cfg3.W → PosShare TreeShare) (c : Dev nD) (a : Fin 10000 → Fin 10000 → EReal) (h : Fin 10000 → Fin 128 → EReal) (w0 : Fin 64 → Fin 128 → EReal)
    (wmu wls : Fin 16 → Fin 64 → EReal) (eps : Fin 10000 → Fin 16 → EReal)
    (hZ : ∀ (p : Fin 10000) (l : Fin 16), (V c main_v3 : S10000x16.Idx → EReal) (ix2 p l) = Cert.Spec.z a h w0 wmu wls eps p l) :
    ∀ (p j : Fin 10000), (dat3 (F := Ideal) V q c).arrAt 2 cfg3.N (ix2 p j) = Cert.Spec.logits a h w0 wmu wls eps p j := by
  have hfin : (dat3 (F := Ideal) V q c).arrAt 2 cfg3.N = G3 a h w0 wmu wls eps :=
    (dat3 (F := Ideal) V q c).arrAt_eq_of_cover 2 (G3 a h w0 wmu wls eps)
      (fun t _ => flushed3_eq V q c a h w0 wmu wls eps hZ t) (fun i => by
        have hi0 : (i 0).val < 10000 := (i 0).isLt
        have hi1 : (i 1).val < 10000 := (i 1).isLt
        have ht : (i 0).val / 400 < cfg3.N := by rw [show cfg3.N = 25 from N_3]; omega
        obtain ⟨-, -, -, -, e4, e5⟩ := idx_facts3 ⟨(i 0).val / 400, ht⟩
        refine ⟨⟨(i 0).val / 400, ht⟩, flush3_2 _, ?_⟩
        rw [mem_blk3]
        intro a
        match a with
        | ⟨0, _⟩ =>
          show win3_2.index ⟨(i 0).val / 400, ht⟩ (0 : Fin 2) * 400 ≤ (i 0).val ∧ (i 0).val < win3_2.index ⟨(i 0).val / 400, ht⟩ (0 : Fin 2) * 400 + 400
          rw [e4]; show (i 0).val / 400 * 400 ≤ (i 0).val ∧ (i 0).val < (i 0).val / 400 * 400 + 400; omega
        | ⟨1, _⟩ =>
          show win3_2.index ⟨(i 0).val / 400, ht⟩ (1 : Fin 2) * 10000 ≤ (i 1).val ∧ (i 1).val < win3_2.index ⟨(i 0).val / 400, ht⟩ (1 : Fin 2) * 10000 + 10000
          rw [e5]; omega)
  intro p j
  rw [hfin]
  rfl

end Cert.KVal

end
-- ==== Proof.PayWc.lean ====
/-
  The host's stacking of the two second-layer weights, read at an index.

  The two 16×64 weights are concatenated along the first axis into one 32×64 array: rows 0–15 are the first
  weight's rows, rows 16–31 the second's shifted back by 16.
-/
import proofs.«108970_g8160437862604_cont_9to1_m_911_6_alg».proof.Proof.Gen.KernelIdeal.Skeleton
import proofs.«108970_g8160437862604_cont_9to1_m_911_6_alg».proof.Proof.Spec
import proofs.«108970_g8160437862604_cont_9to1_m_911_6_alg».proof.Proof.LibRowRead

noncomputable section

open scoped BigOperators

namespace Cert.Pay

open Idealize.ShloMosaic Idealize.ShloMosaic.ValueIdx Cert.KernelIdeal Cert.KernelIdeal.Gen

/-- The stacked weight at (j, l): the first weight at (j, l) when j < 16, else the second at (j − 16, l). -/
theorem wc_eq (x y : FVec Ideal S16x64 .f32) (j : Fin 32) (l : Fin 64) :
    (concatenate S32x64 0 [⟨S16x64, x⟩, ⟨S16x64, y⟩] Facts₀.concatenates_S16x64_S16x64_S32x64_d0 : FVec Ideal S32x64 .f32)
        (ix2 j l) = Cert.Spec.wc (Cert.Spec.arr2 x) (Cert.Spec.arr2 y) j l := by
  unfold Cert.Spec.wc
  by_cases hj : j.val < 16
  · rw [dif_pos hj]
    exact Cert.Lib.RowRead.concat_rows_top (a := 16) (b := 64) x y Facts₀.concatenates_S16x64_S16x64_S32x64_d0 ⟨j.val, hj⟩ l
  · rw [dif_neg hj]
    have key := Cert.Lib.RowRead.concat_rows_bottom (a := 16) (b := 64) x y Facts₀.concatenates_S16x64_S16x64_S32x64_d0
      ⟨j.val - 16, by omega⟩ l
    have hj' : (Fin.natAdd 16 (⟨j.val - 16, by omega⟩ : Fin 16) : Fin 32) = j :=
      Fin.ext (by show 16 + (j.val - 16) = j.val; omega)
    rw [hj'] at key
    exact key

end Cert.Pay

end
-- ==== Proof.KIValue.lean ====
/-
  The values the four regions hand one another, from the launch contents to the result.

  Writing a, h, w0, wmu, wls, eps for the six argument arrays: the host stretch leaves the arguments as launched and
  the stacked weight at wc; the first region leaves the degree column at deg and the projected array at g1; the
  second leaves its output at g2; the third leaves the code array at z; the fourth leaves the result at
  Σ_l z p l · z j l.  Each region reads what the earlier ones wrote and every item leaves the other arrays alone, so
  the hypotheses of each region's value lemma are the conclusions of the earlier ones.
-/
import proofs.«108970_g8160437862604_cont_9to1_m_911_6_alg».proof.Proof.KIRun
import proofs.«108970_g8160437862604_cont_9to1_m_911_6_alg».proof.Proof.KVal0
import proofs.«108970_g8160437862604_cont_9to1_m_911_6_alg».proof.Proof.KVal1
import proofs.«108970_g8160437862604_cont_9to1_m_911_6_alg».proof.Proof.KVal2
import proofs.«108970_g8160437862604_cont_9to1_m_911_6_alg».proof.Proof.KVal3
import proofs.«108970_g8160437862604_cont_9to1_m_911_6_alg».proof.Proof.PayWc
import proofs.«108970_g8160437862604_cont_9to1_m_911_6_alg».proof.Proof.Spec
import Idealize.ShloMosaic.Lib.StableHlo.Run

noncomputable section

open scoped BigOperators

namespace Cert.KVal

open Cert.KernelIdeal Cert.KernelIdeal.Gen Cert.KernelIdeal.Fr Idealize.ShloMosaic Idealize.ShloMosaic.ValueIdx
open Idealize.ShloMosaic.TcCoe Idealize.SL Idealize.SL.RA Idealize.SL.Sem Idealize.ShloMosaic.StableHlo

variable (m : (ℓ : Loc nD τ sig) → Buf (Elt Ideal) ℓ) (ρ : Dev nD → PrngReg) (c : Dev nD)

/-! ### The six arguments as the specification's functions -/

abbrev sa : Fin 10000 → Fin 10000 → EReal := (Cert.Spec.arr2 ((m ((c.tc : Thread nD τ).loc main_arg0)) : S10000x10000.Idx → EReal))
abbrev sh : Fin 10000 → Fin 128 → EReal := (Cert.Spec.arr2 ((m ((c.tc : Thread nD τ).loc main_arg1)) : S10000x128.Idx → EReal))
abbrev sw0 : Fin 64 → Fin 128 → EReal := (Cert.Spec.arr2 ((m ((c.tc : Thread nD τ).loc main_arg2)) : S64x128.Idx → EReal))
abbrev swmu : Fin 16 → Fin 64 → EReal := (Cert.Spec.arr2 ((m ((c.tc : Thread nD τ).loc main_arg3)) : S16x64.Idx → EReal))
abbrev swls : Fin 16 → Fin 64 → EReal := (Cert.Spec.arr2 ((m ((c.tc : Thread nD τ).loc main_arg4)) : S16x64.Idx → EReal))
abbrev seps : Fin 10000 → Fin 16 → EReal := (Cert.Spec.arr2 ((m ((c.tc : Thread nD τ).loc main_arg5)) : S10000x16.Idx → EReal))

/-! ### After the host stretch: the arguments as launched, the stacked weight -/

theorem stage1_arg0 (p q : Fin 10000) :
    (V1 m ρ c main_arg0 : S10000x10000.Idx → EReal) (ix2 p q) = sa m c p q :=
  congrFun (W1_keep m ρ c main_arg0 (by decide)) (ix2 p q)
theorem stage1_arg1 (p : Fin 10000) (l : Fin 128) :
    (V1 m ρ c main_arg1 : S10000x128.Idx → EReal) (ix2 p l) = sh m c p l :=
  congrFun (W1_keep m ρ c main_arg1 (by decide)) (ix2 p l)
theorem stage1_arg2 (j : Fin 64) (l : Fin 128) :
    (V1 m ρ c main_arg2 : S64x128.Idx → EReal) (ix2 j l) = sw0 m c j l :=
  congrFun (W1_keep m ρ c main_arg2 (by decide)) (ix2 j l)
theorem stage1_arg5 (p : Fin 10000) (j : Fin 16) :
    (V1 m ρ c main_arg5 : S10000x16.Idx → EReal) (ix2 p j) = seps m c p j :=
  congrFun (W1_keep m ρ c main_arg5 (by decide)) (ix2 p j)

/-- The host stretch's one operation stacks the two head weights. -/
theorem stage1_v0_eq :
    (W1 m ρ c (Proc.devRef .tc main_v0) : S32x64.Idx → EReal)
      = (concatenate S32x64 0 [⟨S16x64, (m ((c.tc : Thread nD τ).loc main_arg3))⟩, ⟨S16x64, (m ((c.tc : Thread nD τ).loc main_arg4))⟩]
          Facts₀.concatenates_S16x64_S16x64_S32x64_d0 : FVec Ideal S32x64 .f32) := by
  dsimp only [W1, hostOps0]
  after_results

theorem stage1_v0 (j : Fin 32) (l : Fin 64) :
    (V1 m ρ c main_v0 : S32x64.Idx → EReal) (ix2 j l) = Cert.Spec.wc (swmu m c) (swls m c) j l := by
  show (W1 m ρ c (Proc.devRef .tc main_v0) : S32x64.Idx → EReal) (ix2 j l) = _
  rw [stage1_v0_eq]
  exact Cert.Pay.wc_eq _ _ j l

/-! ### After the first region -/

theorem stage2_arg0 (p q : Fin 10000) :
    (V2 m ρ c main_arg0 : S10000x10000.Idx → EReal) (ix2 p q) = sa m c p q :=
  (congrFun (W2_keep m ρ c main_arg0 (by decide) (by decide)) (ix2 p q)).trans (stage1_arg0 m ρ c p q)
theorem stage2_arg5 (p : Fin 10000) (j : Fin 16) :
    (V2 m ρ c main_arg5 : S10000x16.Idx → EReal) (ix2 p j) = seps m c p j :=
  (congrFun (W2_keep m ρ c main_arg5 (by decide) (by decide)) (ix2 p j)).trans (stage1_arg5 m ρ c p j)
theorem stage2_v0 (j : Fin 32) (l : Fin 64) :
    (V2 m ρ c main_v0 : S32x64.Idx → EReal) (ix2 j l) = Cert.Spec.wc (swmu m c) (swls m c) j l :=
  (congrFun (W2_keep m ρ c main_v0 (by decide) (by decide)) (ix2 j l)).trans (stage1_v0 m ρ c j l)

/-- The degree column holds the row degrees. -/
theorem stage2_d (p : Fin 10000) (q : Fin 1) :
    (V2 m ρ c main_v1_0 : S10000x1.Idx → EReal) (ix2 p q) = Cert.Spec.deg (sa m c) p :=
  (congrFun (W2_arr m ρ c 3) (ix2 p q)).trans
    (final0_d (V1 m ρ) c (sa m c) (stage1_arg0 m ρ c) p q)

/-- The projected array holds g1. -/
theorem stage2_g (p : Fin 10000) (j : Fin 64) :
    (V2 m ρ c main_v1_1 : S10000x64.Idx → EReal) (ix2 p j) = Cert.Spec.g1 (sa m c) (sh m c) (sw0 m c) p j :=
  (congrFun (W2_arr m ρ c 4) (ix2 p j)).trans
    (final0_g (V1 m ρ) c (sa m c) (sh m c) (sw0 m c) (stage1_arg0 m ρ c) (stage1_arg1 m ρ c) (stage1_arg2 m ρ c) p j)

/-! ### After the second region -/

theorem stage3_arg0 (p q : Fin 10000) :
    (V3 m ρ c main_arg0 : S10000x10000.Idx → EReal) (ix2 p q) = sa m c p q :=
  (congrFun (W3_keep m ρ c main_arg0 (by decide)) (ix2 p q)).trans (stage2_arg0 m ρ c p q)
theorem stage3_arg5 (p : Fin 10000) (j : Fin 16) :
    (V3 m ρ c main_arg5 : S10000x16.Idx → EReal) (ix2 p j) = seps m c p j :=
  (congrFun (W3_keep m ρ c main_arg5 (by decide)) (ix2 p j)).trans (stage2_arg5 m ρ c p j)
theorem stage3_d (p : Fin 10000) (q : Fin 1) :
    (V3 m ρ c main_v1_0 : S10000x1.Idx → EReal) (ix2 p q) = Cert.Spec.deg (sa m c) p :=
  (congrFun (W3_keep m ρ c main_v1_0 (by decide)) (ix2 p q)).trans (stage2_d m ρ c p q)

/-- The second region's output holds g2. -/
theorem stage3 (p : Fin 10000) (j : Fin 32) :
    (V3 m ρ c main_v2 : S10000x32.Idx → EReal) (ix2 p j)
      = Cert.Spec.g2 (sa m c) (sh m c) (sw0 m c) (swmu m c) (swls m c) p j :=
  (congrFun (W3_arr m ρ c 4) (ix2 p j)).trans
    (final1 (V2 m ρ) c (sa m c) (sh m c) (sw0 m c) (swmu m c) (swls m c)
      (stage2_arg0 m ρ c) (stage2_g m ρ c) (stage2_d m ρ c) (stage2_v0 m ρ c) p j)

/-! ### After the third region -/

/-- The code array holds z. -/
theorem stage4 (p : Fin 10000) (j : Fin 16) :
    (V4 m ρ c main_v3 : S10000x16.Idx → EReal) (ix2 p j)
      = Cert.Spec.z (sa m c) (sh m c) (sw0 m c) (swmu m c) (swls m c) (seps m c) p j :=
  (congrFun (W4_arr m ρ c 4) (ix2 p j)).trans
    (final2 (V3 m ρ) c (sa m c) (sh m c) (sw0 m c) (swmu m c) (swls m c) (seps m c)
      (stage3_arg0 m ρ c) (stage3 m ρ c) (stage3_d m ρ c) (stage3_arg5 m ρ c) p j)

/-! ### After the fourth region -/

/-- The result array at (p, j) is the inner product of the codes of p and j. -/
theorem stage5 (p j : Fin 10000) :
    (W5 m ρ c (Proc.devRef .tc main_v4) : S10000x10000.Idx → EReal) (ix2 p j)
      = Cert.Spec.logits (sa m c) (sh m c) (sw0 m c) (swmu m c) (swls m c) (seps m c) p j :=
  (congrFun (W5_out m ρ c) (ix2 p j)).trans
    (final3 (V4 m ρ) q3 c (sa m c) (sh m c) (sw0 m c) (swmu m c) (swls m c) (seps m c) (stage4 m ρ c) p j)

/-- The kernel program's result array is the specification's result array of its six arguments. -/
theorem value_out (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Fr.W5 (F := Ideal) m ρ c (Proc.devRef .tc Cert.KernelIdeal.main_v4)
      = Cert.Spec.logitsArr (m ((c.tc : Thread Cert.KernelIdeal.nD Cert.KernelIdeal.τ).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) := by
  funext i
  obtain ⟨p, j, rfl⟩ : ∃ (p : Fin 10000) (j : Fin 10000), i = ix2 p j := ⟨i 0, i 1, eq_ix2 i⟩
  exact stage5 m ρ c p j

end Cert.KVal

end
-- ==== Proof.RefPow.lean ====
/-
  The one real law of this certificate: a power with exponent −1/2 of a number clipped below at 1 is the
  reciprocal square root of that number.  For x : EReal, max 1 x is 1, a real r ≥ 1, or +∞; in each case
  (max 1 x)^(−1/2) = 1/√(max x 1).
-/
import proofs.«108970_g8160437862604_cont_9to1_m_911_6_alg».proof.Proof.Spec

noncomputable section

namespace Cert.RefSpec

open Idealize.ShloMosaic

/-- The f32 pattern 0x3F800000 is the number 1. -/
theorem one_eq : Cert.Spec.one = 1 := by
  simp [Cert.Spec.one, Ideal.ofBits, Ideal.ieee, -EReal.coe_mul]; norm_num

/-- The f32 pattern 0xBF000000 is the number −1/2. -/
theorem neg_half_eq : Ideal.ofBits .f32 0xBF000000#32 = (((-1/2 : ℝ)) : EReal) := by
  simp [Ideal.ofBits, Ideal.ieee, -EReal.coe_mul]; norm_num

/-- For a real r ≥ 1, r^(−1/2) = (√r)⁻¹. -/
theorem rpow_neg_half {r : ℝ} (hr : 1 ≤ r) : Real.rpow r (-1/2) = (Real.sqrt r)⁻¹ := by
  have h0 : 0 ≤ r := le_trans zero_le_one hr
  show r ^ (-1/2 : ℝ) = (Real.sqrt r)⁻¹
  rw [show (-1/2 : ℝ) = -(1/2) by norm_num, Real.rpow_neg h0, Real.sqrt_eq_rpow]

/-- The law: (max 1 x)^(−1/2) = rsqrt (max x 1), for every extended real x. -/
theorem pow_neg_half (x : EReal) :
    Ideal.pow (max Cert.Spec.one x) (Ideal.ofBits .f32 0xBF000000#32) = Ideal.rsqrt (max x Cert.Spec.one) := by
  rw [one_eq, neg_half_eq]
  induction x using EReal.rec with
  | bot =>
    rw [max_eq_left bot_le, max_eq_right bot_le]
    show Ideal.pow ((1 : ℝ) : EReal) ((-1/2 : ℝ) : EReal) = Ideal.rsqrt ((1 : ℝ) : EReal)
    rw [Ideal.pow_coe_coe, Ideal.rsqrt_coe, rpow_neg_half le_rfl]
    simp
  | coe r =>
    have h1 : max (1 : EReal) (r : EReal) = ((max 1 r : ℝ) : EReal) := by
      rw [EReal.coe_strictMono.monotone.map_max, EReal.coe_one]
    have h2 : max (r : EReal) (1 : EReal) = ((max 1 r : ℝ) : EReal) := by
      rw [max_comm, h1]
    rw [h1, h2, Ideal.pow_coe_coe, Ideal.rsqrt_coe, rpow_neg_half (le_max_left 1 r)]
    have hpos : (0 : ℝ) < max 1 r := lt_of_lt_of_le zero_lt_one (le_max_left 1 r)
    rw [if_neg (not_lt.mpr hpos.le), if_neg hpos.ne']
  | top =>
    rw [max_eq_right le_top, max_eq_left le_top, Ideal.pow_top, Ideal.rsqrt_top]
    have hneg : ¬ (0 : EReal) < (((-1/2 : ℝ)) : EReal) := by
      rw [not_lt]; exact_mod_cast (by norm_num : (-1/2 : ℝ) ≤ 0)
    have hne : ¬ ((((-1/2 : ℝ)) : EReal) = 0) := by
      intro h; have : (-1/2 : ℝ) = 0 := by exact_mod_cast h
      norm_num at this
    rw [if_neg hneg, if_neg hne]

end Cert.RefSpec

end
-- ==== Proof.RefNorm.lean ====
/-
  The reference's normalisation stages, read at an index, in the specification's vocabulary.

  The program computes the row degree Σ_k a i k (a sum started from the zero pattern), clips it below at 1, raises
  it to the power −1/2 and spreads the result along rows.  It does so three times with the same operations; the
  three chains are the same term.  At a row i every spread copy is nrm i = rsqrt (max (deg i) 1).
-/
import proofs.«108970_g8160437862604_cont_9to1_m_911_6_alg».proof.Proof.Gen.ReferenceIdeal.Read
import proofs.«108970_g8160437862604_cont_9to1_m_911_6_alg».proof.Proof.Spec
import proofs.«108970_g8160437862604_cont_9to1_m_911_6_alg».proof.Proof.RefPow

noncomputable section

open scoped BigOperators

namespace Cert.RefSpec

open Cert.ReferenceIdeal Cert.ReferenceIdeal.Gen Cert.ReferenceIdeal.Read Idealize.ShloMosaic Idealize.ShloMosaic.ValueIdx

variable (x0 : (⟨S10000x10000, .f32⟩ : BufTy).Contents (Elt Ideal))

/-! ### The three degree / normalisation chains are one term -/

theorem v17_eq_v4 : val_main_v17 (F := Ideal) x0 = val_main_v4 (F := Ideal) x0 := rfl
theorem v29_eq_v4 : val_main_v29 (F := Ideal) x0 = val_main_v4 (F := Ideal) x0 := rfl

/-! ### Index equations -/

theorem idx_v0 (i k : Fin 10000) : idx_main_v0 (ix1 i) k = ix2 i k :=
  funext fun a => Fin.ext (by match a with | ⟨0, _⟩ => rfl | ⟨1, _⟩ => rfl)
theorem idx_v4 (i : Fin 10000) (q : Fin 1) : idx_main_v4 (ix2 i q) = ix1 i :=
  funext fun a => Fin.ext (by match a with | ⟨0, _⟩ => rfl)
theorem idx_v5 (i : Fin 10000) (l : Fin 128) : idx_main_v5 (ix2 i l) = ix2 i (0 : Fin 1) :=
  funext fun a => Fin.ext (by match a with | ⟨0, _⟩ => rfl | ⟨1, _⟩ => rfl)
theorem idx_v10 (i : Fin 10000) (l : Fin 64) : idx_main_v10 (ix2 i l) = ix2 i (0 : Fin 1) :=
  funext fun a => Fin.ext (by match a with | ⟨0, _⟩ => rfl | ⟨1, _⟩ => rfl)
theorem idx_v23 (i : Fin 10000) (l : Fin 16) : idx_main_v23 (ix2 i l) = ix2 i (0 : Fin 1) :=
  funext fun a => Fin.ext (by match a with | ⟨0, _⟩ => rfl | ⟨1, _⟩ => rfl)

/-! ### The stages -/

/-- The degree stage at row i is the row sum of the adjacency. -/
theorem deg_stage (i : Fin 10000) : val_main_v0 (F := Ideal) x0 (ix1 i) = Cert.Spec.deg (Cert.Spec.arr2 x0) i := by
  rw [val_main_v0_apply, val_main_cst_apply, Ideal.ofBits_def, Ideal.ofBits_zero_f32, zero_add]
  unfold Cert.Spec.deg Cert.Spec.arr2
  exact Finset.sum_congr rfl fun k _ => congrArg x0 (idx_v0 i k)

/-- The power stage at row i is the normalisation 1/√(max(deg i, 1)). -/
theorem nrm_stage (i : Fin 10000) : val_main_v3 (F := Ideal) x0 (ix1 i) = Cert.Spec.nrm (Cert.Spec.arr2 x0) i := by
  rw [val_main_v3_apply, val_main_v1_apply, val_main_call0_v1_apply, val_main_call0_v0_apply, val_main_cst_0_apply,
    val_main_v2_apply, val_main_cst_1_apply, deg_stage]
  simp only [Ideal.hostPowf_def, Ideal.maximumf_def, Ideal.ofBits_def]
  exact pow_neg_half _

/-- The column [10000,1] holds nrm i at (i, 0). -/
theorem nrm_col (i : Fin 10000) (q : Fin 1) :
    val_main_v4 (F := Ideal) x0 (ix2 i q) = Cert.Spec.nrm (Cert.Spec.arr2 x0) i := by
  rw [val_main_v4_apply, idx_v4, nrm_stage]

/-- The column spread over 128 lanes. -/
theorem nrm_b128 (i : Fin 10000) (l : Fin 128) :
    val_main_v5 (F := Ideal) x0 (ix2 i l) = Cert.Spec.nrm (Cert.Spec.arr2 x0) i := by
  rw [val_main_v5_apply, idx_v5, nrm_col]

/-- The column spread over 64 lanes (first layer's output scale). -/
theorem nrm_b64 (i : Fin 10000) (l : Fin 64) :
    val_main_v10 (F := Ideal) x0 (ix2 i l) = Cert.Spec.nrm (Cert.Spec.arr2 x0) i := by
  rw [val_main_v10_apply, idx_v10, nrm_col]

/-- The second and third chains' 64-lane spreads are the first's. -/
theorem nrm_b64' (i : Fin 10000) (l : Fin 64) :
    val_main_v18 (F := Ideal) x0 (ix2 i l) = Cert.Spec.nrm (Cert.Spec.arr2 x0) i := by
  rw [val_main_v18_apply, v17_eq_v4, show idx_main_v18 (ix2 i l) = ix2 i (0 : Fin 1) from idx_v10 i l, nrm_col]
theorem nrm_b64'' (i : Fin 10000) (l : Fin 64) :
    val_main_v30 (F := Ideal) x0 (ix2 i l) = Cert.Spec.nrm (Cert.Spec.arr2 x0) i := by
  rw [val_main_v30_apply, v29_eq_v4, show idx_main_v30 (ix2 i l) = ix2 i (0 : Fin 1) from idx_v10 i l, nrm_col]

/-- The column spread over 16 lanes (second layer's output scale), both heads. -/
theorem nrm_b16 (i : Fin 10000) (l : Fin 16) :
    val_main_v23 (F := Ideal) x0 (ix2 i l) = Cert.Spec.nrm (Cert.Spec.arr2 x0) i := by
  rw [val_main_v23_apply, v17_eq_v4, idx_v23, nrm_col]
theorem nrm_b16' (i : Fin 10000) (l : Fin 16) :
    val_main_v35 (F := Ideal) x0 (ix2 i l) = Cert.Spec.nrm (Cert.Spec.arr2 x0) i := by
  rw [val_main_v35_apply, v29_eq_v4, show idx_main_v35 (ix2 i l) = ix2 i (0 : Fin 1) from idx_v23 i l, nrm_col]

end Cert.RefSpec

end
-- ==== Proof.RefLayer1.lean ====
/-
  The reference's first layer, read at an index, in the specification's vocabulary.

  Features scaled by the row normalisation and multiplied by w0ᵀ (the transposed weight read at (k, j) is w0 j k)
  give g1; the adjacency times g1, scaled by the normalisation again and clipped below at 0, gives h0.
-/
import proofs.«108970_g8160437862604_cont_9to1_m_911_6_alg».proof.Proof.Gen.ReferenceIdeal.Read
import proofs.«108970_g8160437862604_cont_9to1_m_911_6_alg».proof.Proof.Spec
import proofs.«108970_g8160437862604_cont_9to1_m_911_6_alg».proof.Proof.RefNorm

noncomputable section

open scoped BigOperators

namespace Cert.RefSpec

open Cert.ReferenceIdeal Cert.ReferenceIdeal.Gen Cert.ReferenceIdeal.Read Idealize.ShloMosaic Idealize.ShloMosaic.ValueIdx

variable (x0 : (⟨S10000x10000, .f32⟩ : BufTy).Contents (Elt Ideal)) (x1 : (⟨S10000x128, .f32⟩ : BufTy).Contents (Elt Ideal))
  (x2 : (⟨S64x128, .f32⟩ : BufTy).Contents (Elt Ideal))

/-! ### Index equations -/

theorem lidx_v8 (i : Fin 10000) (j : Fin 64) (k : Fin 128) : lidx_main_v8 (ix2 i j) k = ix2 i k :=
  funext fun a => Fin.ext (by match a with | ⟨0, _⟩ => rfl | ⟨1, _⟩ => rfl)
theorem ridx_v8 (i : Fin 10000) (j : Fin 64) (k : Fin 128) : ridx_main_v8 (ix2 i j) k = ix2 k j :=
  funext fun a => Fin.ext (by match a with | ⟨0, _⟩ => rfl | ⟨1, _⟩ => rfl)
theorem idx_v7 (k : Fin 128) (j : Fin 64) : idx_main_v7 (ix2 k j) = ix2 j k :=
  funext fun a => Fin.ext (by match a with | ⟨0, _⟩ => rfl | ⟨1, _⟩ => rfl)
theorem lidx_v9 (i : Fin 10000) (j : Fin 64) (k : Fin 10000) : lidx_main_v9 (ix2 i j) k = ix2 i k :=
  funext fun a => Fin.ext (by match a with | ⟨0, _⟩ => rfl | ⟨1, _⟩ => rfl)
theorem ridx_v9 (i : Fin 10000) (j : Fin 64) (k : Fin 10000) : ridx_main_v9 (ix2 i j) k = ix2 k j :=
  funext fun a => Fin.ext (by match a with | ⟨0, _⟩ => rfl | ⟨1, _⟩ => rfl)

/-! ### The stages -/

/-- The first product at (i, j) is Σ_l (h i l · nrm i) · w0 j l. -/
theorem g1_stage (i : Fin 10000) (j : Fin 64) :
    val_main_v8 (F := Ideal) x0 x1 x2 (ix2 i j) = Cert.Spec.g1 (Cert.Spec.arr2 x0) (Cert.Spec.arr2 x1) (Cert.Spec.arr2 x2) i j := by
  rw [val_main_v8_apply]
  unfold Cert.Spec.g1
  refine Finset.sum_congr rfl fun k _ => ?_
  rw [lidx_v8, ridx_v8, val_main_v6_apply, val_main_v7_apply, idx_v7, nrm_b128]
  simp only [Ideal.mulf_def]
  rfl

/-- The aggregation at (i, j) is Σ_k a i k · g1 k j. -/
theorem agg1_stage (i : Fin 10000) (j : Fin 64) :
    val_main_v9 (F := Ideal) x0 x1 x2 (ix2 i j)
      = ∑ k : Fin 10000, Cert.Spec.arr2 x0 i k * Cert.Spec.g1 (Cert.Spec.arr2 x0) (Cert.Spec.arr2 x1) (Cert.Spec.arr2 x2) k j := by
  rw [val_main_v9_apply]
  refine Finset.sum_congr rfl fun k _ => ?_
  rw [lidx_v9, ridx_v9, g1_stage]
  rfl

/-- The rectified first layer at (i, j) is h0 i j. -/
theorem h0_stage (i : Fin 10000) (j : Fin 64) :
    val_main_v12 (F := Ideal) x0 x1 x2 (ix2 i j) = Cert.Spec.h0 (Cert.Spec.arr2 x0) (Cert.Spec.arr2 x1) (Cert.Spec.arr2 x2) i j := by
  rw [val_main_v12_apply, val_main_v11_apply, agg1_stage, nrm_b64, val_main_call1_v0_apply, val_main_call1_cst_apply]
  simp only [Ideal.mulf_def, Ideal.maximumf_def, Ideal.ofBits_def]
  rfl

end Cert.RefSpec

end
-- ==== Proof.RefLayer2.lean ====
/-
  The reference's second layer, read at an index, in the specification's vocabulary.

  The program runs the layer twice, once per head, with wmu and with wls; the specification runs it once with the
  two weights stacked (rows 0–15 wmu, rows 16–31 wls).  Head mu at column j is the stacked layer at column j, head
  log-sigma at column j is the stacked layer at column 16 + j.
-/
import proofs.«108970_g8160437862604_cont_9to1_m_911_6_alg».proof.Proof.Gen.ReferenceIdeal.Read
import proofs.«108970_g8160437862604_cont_9to1_m_911_6_alg».proof.Proof.Spec
import proofs.«108970_g8160437862604_cont_9to1_m_911_6_alg».proof.Proof.RefNorm
import proofs.«108970_g8160437862604_cont_9to1_m_911_6_alg».proof.Proof.RefLayer1

noncomputable section

open scoped BigOperators

namespace Cert.RefSpec

open Cert.ReferenceIdeal Cert.ReferenceIdeal.Gen Cert.ReferenceIdeal.Read Idealize.ShloMosaic Idealize.ShloMosaic.ValueIdx

variable (x0 : (⟨S10000x10000, .f32⟩ : BufTy).Contents (Elt Ideal)) (x1 : (⟨S10000x128, .f32⟩ : BufTy).Contents (Elt Ideal))
  (x2 : (⟨S64x128, .f32⟩ : BufTy).Contents (Elt Ideal)) (x3 x4 : (⟨S16x64, .f32⟩ : BufTy).Contents (Elt Ideal))

/-! ### The stacked weight's two halves -/

theorem wc_mu (wmu wls : Fin 16 → Fin 64 → EReal) (j : Fin 16) (l : Fin 64) :
    Cert.Spec.wc wmu wls ⟨j.val, by omega⟩ l = wmu j l := by
  unfold Cert.Spec.wc
  exact dif_pos j.isLt
theorem wc_ls (wmu wls : Fin 16 → Fin 64 → EReal) (j : Fin 16) (l : Fin 64) :
    Cert.Spec.wc wmu wls ⟨16 + j.val, by omega⟩ l = wls j l := by
  unfold Cert.Spec.wc
  rw [dif_neg (by show ¬ (16 + j.val < 16); omega)]
  exact congrArg (fun t => wls t l) (Fin.ext (by show 16 + j.val - 16 = j.val; omega))

/-! ### Index equations -/

theorem lidx_v21 (i : Fin 10000) (j : Fin 16) (k : Fin 64) : lidx_main_v21 (ix2 i j) k = ix2 i k :=
  funext fun a => Fin.ext (by match a with | ⟨0, _⟩ => rfl | ⟨1, _⟩ => rfl)
theorem ridx_v21 (i : Fin 10000) (j : Fin 16) (k : Fin 64) : ridx_main_v21 (ix2 i j) k = ix2 k j :=
  funext fun a => Fin.ext (by match a with | ⟨0, _⟩ => rfl | ⟨1, _⟩ => rfl)
theorem idx_v20 (k : Fin 64) (j : Fin 16) : idx_main_v20 (ix2 k j) = ix2 j k :=
  funext fun a => Fin.ext (by match a with | ⟨0, _⟩ => rfl | ⟨1, _⟩ => rfl)
theorem lidx_v22 (i : Fin 10000) (j : Fin 16) (k : Fin 10000) : lidx_main_v22 (ix2 i j) k = ix2 i k :=
  funext fun a => Fin.ext (by match a with | ⟨0, _⟩ => rfl | ⟨1, _⟩ => rfl)
theorem ridx_v22 (i : Fin 10000) (j : Fin 16) (k : Fin 10000) : ridx_main_v22 (ix2 i j) k = ix2 k j :=
  funext fun a => Fin.ext (by match a with | ⟨0, _⟩ => rfl | ⟨1, _⟩ => rfl)

/-! ### Head mu -/

/-- The mu head's product at (i, j) is the stacked product at column j. -/
theorem g2_mu_stage (wls : Fin 16 → Fin 64 → EReal) (i : Fin 10000) (j : Fin 16) :
    val_main_v21 (F := Ideal) x0 x1 x2 x3 (ix2 i j)
      = Cert.Spec.g2 (Cert.Spec.arr2 x0) (Cert.Spec.arr2 x1) (Cert.Spec.arr2 x2) (Cert.Spec.arr2 x3) wls i ⟨j.val, by omega⟩ := by
  rw [val_main_v21_apply]
  unfold Cert.Spec.g2
  refine Finset.sum_congr rfl fun k _ => ?_
  rw [lidx_v21, ridx_v21, val_main_v19_apply, val_main_v20_apply, idx_v20, h0_stage, nrm_b64', wc_mu]
  simp only [Ideal.mulf_def]
  rfl

/-- The mu head's output at (i, j) is y at column j. -/
theorem y_mu_stage (wls : Fin 16 → Fin 64 → EReal) (i : Fin 10000) (j : Fin 16) :
    val_main_v24 (F := Ideal) x0 x1 x2 x3 (ix2 i j)
      = Cert.Spec.y (Cert.Spec.arr2 x0) (Cert.Spec.arr2 x1) (Cert.Spec.arr2 x2) (Cert.Spec.arr2 x3) wls i ⟨j.val, by omega⟩ := by
  rw [val_main_v24_apply, val_main_v22_apply, nrm_b16]
  simp only [Ideal.mulf_def]
  unfold Cert.Spec.y
  refine congrArg (· * _) (Finset.sum_congr rfl fun k _ => ?_)
  rw [lidx_v22, ridx_v22, g2_mu_stage x0 x1 x2 x3 wls]
  rfl

/-! ### Head log-sigma -/

/-- The log-sigma head's product at (i, j) is the stacked product at column 16 + j. -/
theorem g2_ls_stage (wmu : Fin 16 → Fin 64 → EReal) (i : Fin 10000) (j : Fin 16) :
    val_main_v33 (F := Ideal) x0 x1 x2 x4 (ix2 i j)
      = Cert.Spec.g2 (Cert.Spec.arr2 x0) (Cert.Spec.arr2 x1) (Cert.Spec.arr2 x2) wmu (Cert.Spec.arr2 x4) i ⟨16 + j.val, by omega⟩ := by
  rw [val_main_v33_apply]
  unfold Cert.Spec.g2
  refine Finset.sum_congr rfl fun k _ => ?_
  rw [show lidx_main_v33 (ix2 i j) k = ix2 i k from lidx_v21 i j k,
    show ridx_main_v33 (ix2 i j) k = ix2 k j from ridx_v21 i j k,
    val_main_v31_apply, val_main_v32_apply, show idx_main_v32 (ix2 k j) = ix2 j k from idx_v20 k j,
    h0_stage, nrm_b64'', wc_ls]
  simp only [Ideal.mulf_def]
  rfl

/-- The log-sigma head's output at (i, j) is y at column 16 + j. -/
theorem y_ls_stage (wmu : Fin 16 → Fin 64 → EReal) (i : Fin 10000) (j : Fin 16) :
    val_main_v36 (F := Ideal) x0 x1 x2 x4 (ix2 i j)
      = Cert.Spec.y (Cert.Spec.arr2 x0) (Cert.Spec.arr2 x1) (Cert.Spec.arr2 x2) wmu (Cert.Spec.arr2 x4) i ⟨16 + j.val, by omega⟩ := by
  rw [val_main_v36_apply, val_main_v34_apply, nrm_b16']
  simp only [Ideal.mulf_def]
  unfold Cert.Spec.y
  refine congrArg (· * _) (Finset.sum_congr rfl fun k _ => ?_)
  rw [show lidx_main_v34 (ix2 i j) k = ix2 i k from lidx_v22 i j k,
    show ridx_main_v34 (ix2 i j) k = ix2 k j from ridx_v22 i j k, g2_ls_stage x0 x1 x2 x4 wmu]
  rfl

end Cert.RefSpec

end
-- ==== Proof.RefSpec.lean ====
/-
  The reference program computes the specification.

  The sampled code z = mu + exp(log-sigma) · eps is the specification's z; the decoder's product z · zᵀ (the
  transposed operand read at (l, j) is z j l) is the specification's logits; the run's composed term is the last
  stage, so the reference's result array is logitsArr of the six argument arrays.
-/
import proofs.«108970_g8160437862604_cont_9to1_m_911_6_alg».proof.Proof.Gen.ReferenceIdeal.Read
import proofs.«108970_g8160437862604_cont_9to1_m_911_6_alg».proof.Proof.Spec
import proofs.«108970_g8160437862604_cont_9to1_m_911_6_alg».proof.Proof.RefNorm
import proofs.«108970_g8160437862604_cont_9to1_m_911_6_alg».proof.Proof.RefLayer1
import proofs.«108970_g8160437862604_cont_9to1_m_911_6_alg».proof.Proof.RefLayer2

noncomputable section

open scoped BigOperators

namespace Cert.RefSpec

open Cert.ReferenceIdeal Cert.ReferenceIdeal.Gen Cert.ReferenceIdeal.Read Idealize.ShloMosaic Idealize.ShloMosaic.ValueIdx

variable (x0 : (⟨S10000x10000, .f32⟩ : BufTy).Contents (Elt Ideal)) (x1 : (⟨S10000x128, .f32⟩ : BufTy).Contents (Elt Ideal))
  (x2 : (⟨S64x128, .f32⟩ : BufTy).Contents (Elt Ideal)) (x3 x4 : (⟨S16x64, .f32⟩ : BufTy).Contents (Elt Ideal))
  (x5 : (⟨S10000x16, .f32⟩ : BufTy).Contents (Elt Ideal))

/-! ### Index equations -/

theorem lidx_v41 (i j : Fin 10000) (k : Fin 16) : lidx_main_v41 (ix2 i j) k = ix2 i k :=
  funext fun a => Fin.ext (by match a with | ⟨0, _⟩ => rfl | ⟨1, _⟩ => rfl)
theorem ridx_v41 (i j : Fin 10000) (k : Fin 16) : ridx_main_v41 (ix2 i j) k = ix2 k j :=
  funext fun a => Fin.ext (by match a with | ⟨0, _⟩ => rfl | ⟨1, _⟩ => rfl)
theorem idx_v40 (k : Fin 16) (j : Fin 10000) : idx_main_v40 (ix2 k j) = ix2 j k :=
  funext fun a => Fin.ext (by match a with | ⟨0, _⟩ => rfl | ⟨1, _⟩ => rfl)

/-! ### The stages -/

/-- The sampled code at (i, j) is z i j. -/
theorem z_stage (i : Fin 10000) (j : Fin 16) :
    val_main_v39 (F := Ideal) x0 x1 x2 x3 x4 x5 (ix2 i j) = Cert.Spec.z (Cert.Spec.arr2 x0) (Cert.Spec.arr2 x1) (Cert.Spec.arr2 x2) (Cert.Spec.arr2 x3) (Cert.Spec.arr2 x4) (Cert.Spec.arr2 x5) i j := by
  rw [val_main_v39_apply, val_main_v38_apply, val_main_v37_apply,
    y_mu_stage x0 x1 x2 x3 (Cert.Spec.arr2 x4), y_ls_stage x0 x1 x2 x4 (Cert.Spec.arr2 x3)]
  simp only [Ideal.addf_def, Ideal.mulf_def, Ideal.hostUnary_exp_def]
  rfl

/-- The decoder's product at (i, j) is Σ_l z i l · z j l. -/
theorem logits_stage (i j : Fin 10000) :
    val_main_v41 (F := Ideal) x0 x1 x2 x3 x4 x5 (ix2 i j) = Cert.Spec.logits (Cert.Spec.arr2 x0) (Cert.Spec.arr2 x1) (Cert.Spec.arr2 x2) (Cert.Spec.arr2 x3) (Cert.Spec.arr2 x4) (Cert.Spec.arr2 x5) i j := by
  rw [val_main_v41_apply]
  unfold Cert.Spec.logits
  refine Finset.sum_congr rfl fun l _ => ?_
  rw [lidx_v41, ridx_v41, val_main_v40_apply, idx_v40, z_stage, z_stage]

/-- The last stage, as an array, is the specification's result array. -/
theorem val_eq_logitsArr :
    val_main_v41 (F := Ideal) x0 x1 x2 x3 x4 x5 = Cert.Spec.logitsArr x0 x1 x2 x3 x4 x5 := by
  funext i
  obtain ⟨p, q, rfl⟩ : ∃ (p : Fin 10000) (q : Fin 10000), i = ix2 p q := ⟨i 0, i 1, eq_ix2 i⟩
  exact logits_stage x0 x1 x2 x3 x4 x5 p q

/-- The reference's result is the specification's result array of its six arguments. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v41 (F := Ideal) m c
      = Cert.Spec.logitsArr (m ((c.tc : Thread Cert.ReferenceIdeal.nD Cert.ReferenceIdeal.τ).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5)) :=
  (val_main_v41_eq m c).trans (val_eq_logitsArr _ _ _ _ _ _)

end Cert.RefSpec

end
-- ==== Proof.lean ====
/-
  Equivalence, over the extended reals, of a four-region accelerator program for a dense graph autoencoder's forward
  pass and its plain array reference.

  The accelerator program stacks the two 16×64 head weights, then runs four grid regions of 25 points, each point
  handling 400 of the 10000 rows: (0) the row degrees of the adjacency and the scaled features times w0ᵀ; (1) the first
  graph layer — aggregate, scale, rectify — followed by both heads' projection; (2) the second graph layer, then
  z = mean + exp(log-deviation) · noise; (3) the inner products z·zᵀ. The reference computes the same quantities with
  whole-array operations, spelling the normalisation as a power with exponent −1/2 of max(1, degree).

  Frames. Each region is run point by point over its windows (Proof/K*.lean for the word-level program,
  Proof/KI*.lean for the idealized one: the same text at two instances), and the program as a list of items
  (Proof/KRun.lean, Proof/KIRun.lean): no item writes an argument array. The last region reads the code z through two
  windows, a row block and the whole; the two windows hold the one buffer at complementary half shares, dealt at the
  region's entry and joined at its exit. The reference's frame is its run with the result dropped.

  Values. Every region's output array, read at an index, is the function Proof/Spec.lean names (Proof/Pay*.lean: the
  bodies' arithmetic at an index; Proof/KVal*.lean: a block of the output is the body's result on the corresponding
  input blocks, and the blocks cover the array; Proof/KIValue.lean: the regions chained). The reference's result is
  the same function (Proof/Ref*.lean). The one law used beyond unfolding sums and products: for x ≥ 1 or x = +∞,
  x^(−1/2) = 1/√x (Proof/RefPow.lean); finiteness of the inputs is never needed.
-/
import proofs.«108970_g8160437862604_cont_9to1_m_911_6_alg».proof.Defs
import proofs.«108970_g8160437862604_cont_9to1_m_911_6_alg».proof.Proof.Gen.Kernel
import proofs.«108970_g8160437862604_cont_9to1_m_911_6_alg».proof.Proof.Gen.KernelIdeal
import proofs.«108970_g8160437862604_cont_9to1_m_911_6_alg».proof.Proof.Gen.ReferenceIdeal
import proofs.«108970_g8160437862604_cont_9to1_m_911_6_alg».proof.Proof.Gen.Pre_finite_inputs
import proofs.«108970_g8160437862604_cont_9to1_m_911_6_alg».proof.Proof.Gen.ReferenceIdeal.Run
import proofs.«108970_g8160437862604_cont_9to1_m_911_6_alg».proof.Proof.Gen.ReferenceIdeal.Read
import proofs.«108970_g8160437862604_cont_9to1_m_911_6_alg».proof.Proof.KRun
import proofs.«108970_g8160437862604_cont_9to1_m_911_6_alg».proof.Proof.KIRun
import proofs.«108970_g8160437862604_cont_9to1_m_911_6_alg».proof.Proof.KIValue
import proofs.«108970_g8160437862604_cont_9to1_m_911_6_alg».proof.Proof.RefSpec

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Fr.run_frame m ρ
/-- So does the idealized program. -/
theorem frame_ki : Cert.frame_KernelIdeal := fun m ρ _ => Cert.KernelIdeal.Fr.run_frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the one function of the six argument arrays. -/
theorem algebraic : Cert.algebraic_KernelIdeal_ReferenceIdeal := by
  intro m ρ m' ρ' _ hagree
  refine ⟨fun c => Cert.Spec.logitsArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨?_, ?_⟩) (Cert.KernelIdeal.Fr.run_all (F := Ideal) m ρ)
    · exact (h c _ (Cert.KernelIdeal.Fr.mem_uc Cert.KernelIdeal.main_v4 (by decide))).trans (Cert.KVal.value_out m ρ c)
    · exact ⟨(h c _ (Cert.KernelIdeal.Fr.mem_uc Cert.KernelIdeal.main_arg0 (by decide))).trans (Cert.KernelIdeal.Fr.W5_keep m ρ c Cert.KernelIdeal.main_arg0 (by decide) (by decide) (by decide) (by decide) (by decide) (by decide)),
        (h c _ (Cert.KernelIdeal.Fr.mem_uc Cert.KernelIdeal.main_arg1 (by decide))).trans (Cert.KernelIdeal.Fr.W5_keep m ρ c Cert.KernelIdeal.main_arg1 (by decide) (by decide) (by decide) (by decide) (by decide) (by decide)),
        (h c _ (Cert.KernelIdeal.Fr.mem_uc Cert.KernelIdeal.main_arg2 (by decide))).trans (Cert.KernelIdeal.Fr.W5_keep m ρ c Cert.KernelIdeal.main_arg2 (by decide) (by decide) (by decide) (by decide) (by decide) (by decide)),
        (h c _ (Cert.KernelIdeal.Fr.mem_uc Cert.KernelIdeal.main_arg3 (by decide))).trans (Cert.KernelIdeal.Fr.W5_keep m ρ c Cert.KernelIdeal.main_arg3 (by decide) (by decide) (by decide) (by decide) (by decide) (by decide)),
        (h c _ (Cert.KernelIdeal.Fr.mem_uc Cert.KernelIdeal.main_arg4 (by decide))).trans (Cert.KernelIdeal.Fr.W5_keep m ρ c Cert.KernelIdeal.main_arg4 (by decide) (by decide) (by decide) (by decide) (by decide) (by decide)),
        (h c _ (Cert.KernelIdeal.Fr.mem_uc Cert.KernelIdeal.main_arg5 (by decide))).trans (Cert.KernelIdeal.Fr.W5_keep m ρ c Cert.KernelIdeal.main_arg5 (by decide) (by decide) (by decide) (by decide) (by decide) (by decide))⟩
  · refine (θ_run Cert.ReferenceIdeal.defs _ _).mono (fun _ h c => ⟨(h c).1.trans ?_, (h c).2⟩)
      (Cert.ReferenceIdeal.Value.run (F := Ideal) m' ρ')
    rw [Cert.RefSpec.ref_eq m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
